-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S16384x1 : Shape := ⟨2, ![16384, 1]⟩
abbrev S1x16384 : Shape := ⟨2, ![1, 16384]⟩
abbrev S16x1x16384 : Shape := ⟨3, ![16, 1, 16384]⟩
abbrev S1024x1 : Shape := ⟨2, ![1024, 1]⟩
abbrev S1x4096 : Shape := ⟨2, ![1, 4096]⟩
abbrev S1x1x16384 : Shape := ⟨3, ![1, 1, 16384]⟩
abbrev S1x1024 : Shape := ⟨2, ![1, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩

abbrev nBuf : Space → Nat
  | .hbm => 21
  | .vmem => 8
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S1x16384, .f32⟩
  | .hbm, ⟨4, _⟩ => ⟨S16384x1, .f32⟩
  | .hbm, ⟨5, _⟩ => ⟨S16x1x16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x4096, .f32⟩
  | .local _ .vmem, ⟨3, _⟩ => ⟨S1x4096, .f32⟩
  | .local _ .vmem, ⟨4, _⟩ => ⟨S1024x1, .f32⟩
  | .local _ .vmem, ⟨5, _⟩ => ⟨S1024x1, .f32⟩
  | .local _ .vmem, ⟨6, _⟩ => ⟨S1x1x16384, .f32⟩
  | .local _ .vmem, ⟨7, _⟩ => ⟨S1x1x16384, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_mult1 : BitVec 32 :=
  let c0_i32_3 : BitVec 32 := 0#32
  let c0_i32_2 : BitVec 32 := 0#32
  let c1_i32 : BitVec 32 := 1#32
  let v5 : BitVec 32 := Scalar.muli c0_i32_2 c1_i32
  let v6 : BitVec 32 := Scalar.addi c0_i32_3 v5
  let c1024_i32 : BitVec 32 := 1024#32
  let v7 : BitVec 32 := Scalar.muli v6 c1024_i32
  v7
def k0_off1 (c0_i32_2 : BitVec 32) : Fin 2 → Nat :=
  let c0_4 : Index := 0#32
  let c0_i32_3 : BitVec 32 := 0#32
  let c1_i32 : BitVec 32 := 1#32
  let v5 : BitVec 32 := Scalar.muli c0_i32_2 c1_i32
  let v6 : BitVec 32 := Scalar.addi c0_i32_3 v5
  let c1024_i32 : BitVec 32 := 1024#32
  let v7 : BitVec 32 := Scalar.muli v6 c1024_i32
  let v8 : BitVec 32 := v7
  let v9 : Index := Scalar.indexCast v8
  ![0, v9.toNat]
def k0_mult2 (i : grid0.Coords) : BitVec 32 :=
  let arg1 : BitVec 32 := BitVec.ofNat 32 (i 1).val
  let c4096_i32 : BitVec 32 := 4096#32
  let v22 : BitVec 32 := Scalar.muli arg1 c4096_i32
  let c0_i32_3 : BitVec 32 := 0#32
  let c0_i32_2 : BitVec 32 := 0#32
  let c1_i32 : BitVec 32 := 1#32
  let v5 : BitVec 32 := Scalar.muli c0_i32_2 c1_i32
  let v6 : BitVec 32 := Scalar.addi c0_i32_3 v5
  let c1024_i32_9 : BitVec 32 := 1024#32
  let v23 : BitVec 32 := Scalar.muli v6 c1024_i32_9
  let v24 : BitVec 32 := Scalar.addi v22 v23
  v24
def k0_off2 (i : grid0.Coords) (c0_i32_2 : BitVec 32) : Fin 3 → Nat :=
  let c0_10 : Index := 0#32
  let c0_11 : Index := 0#32
  let arg1 : BitVec 32 := BitVec.ofNat 32 (i 1).val
  let c4096_i32 : BitVec 32 := 4096#32
  let v22 : BitVec 32 := Scalar.muli arg1 c4096_i32
  let c0_i32_3 : BitVec 32 := 0#32
  let c1_i32 : BitVec 32 := 1#32
  let v5 : BitVec 32 := Scalar.muli c0_i32_2 c1_i32
  let v6 : BitVec 32 := Scalar.addi c0_i32_3 v5
  let c1024_i32_9 : BitVec 32 := 1024#32
  let v23 : BitVec 32 := Scalar.muli v6 c1024_i32_9
  let v24 : BitVec 32 := Scalar.addi v22 v23
  let v25 : BitVec 32 := v24
  let v26 : Index := Scalar.indexCast v25
  ![0, 0, v26.toNat]
def k0_mult3 : BitVec 32 :=
  let c0_i32_17 : BitVec 32 := 0#32
  let c1_i32_15 : BitVec 32 := 1#32
  let c1_i32_16 : BitVec 32 := 1#32
  let v35 : BitVec 32 := Scalar.muli c1_i32_15 c1_i32_16
  let v36 : BitVec 32 := Scalar.addi c0_i32_17 v35
  let c1024_i32_18 : BitVec 32 := 1024#32
  let v37 : BitVec 32 := Scalar.muli v36 c1024_i32_18
  v37
def k0_mult4 (i : grid0.Coords) : BitVec 32 :=
  let arg1 : BitVec 32 := BitVec.ofNat 32 (i 1).val
  let c4096_i32_25 : BitVec 32 := 4096#32
  let v52 : BitVec 32 := Scalar.muli arg1 c4096_i32_25
  let c0_i32_17 : BitVec 32 := 0#32
  let c1_i32_15 : BitVec 32 := 1#32
  let c1_i32_16 : BitVec 32 := 1#32
  let v35 : BitVec 32 := Scalar.muli c1_i32_15 c1_i32_16
  let v36 : BitVec 32 := Scalar.addi c0_i32_17 v35
  let c1024_i32_26 : BitVec 32 := 1024#32
  let v53 : BitVec 32 := Scalar.muli v36 c1024_i32_26
  let v54 : BitVec 32 := Scalar.addi v52 v53
  v54
def k0_mult5 : BitVec 32 :=
  let c0_i32_33 : BitVec 32 := 0#32
  let c2_i32 : BitVec 32 := 2#32
  let c1_i32_32 : BitVec 32 := 1#32
  let v65 : BitVec 32 := Scalar.muli c2_i32 c1_i32_32
  let v66 : BitVec 32 := Scalar.addi c0_i32_33 v65
  let c1024_i32_34 : BitVec 32 := 1024#32
  let v67 : BitVec 32 := Scalar.muli v66 c1024_i32_34
  v67
def k0_mult6 (i : grid0.Coords) : BitVec 32 :=
  let arg1 : BitVec 32 := BitVec.ofNat 32 (i 1).val
  let c4096_i32_41 : BitVec 32 := 4096#32
  let v82 : BitVec 32 := Scalar.muli arg1 c4096_i32_41
  let c0_i32_33 : BitVec 32 := 0#32
  let c2_i32 : BitVec 32 := 2#32
  let c1_i32_32 : BitVec 32 := 1#32
  let v65 : BitVec 32 := Scalar.muli c2_i32 c1_i32_32
  let v66 : BitVec 32 := Scalar.addi c0_i32_33 v65
  let c1024_i32_42 : BitVec 32 := 1024#32
  let v83 : BitVec 32 := Scalar.muli v66 c1024_i32_42
  let v84 : BitVec 32 := Scalar.addi v82 v83
  v84
def k0_mult7 : BitVec 32 :=
  let c0_i32_49 : BitVec 32 := 0#32
  let c3_i32 : BitVec 32 := 3#32
  let c1_i32_48 : BitVec 32 := 1#32
  let v95 : BitVec 32 := Scalar.muli c3_i32 c1_i32_48
  let v96 : BitVec 32 := Scalar.addi c0_i32_49 v95
  let c1024_i32_50 : BitVec 32 := 1024#32
  let v97 : BitVec 32 := Scalar.muli v96 c1024_i32_50
  v97
def k0_mult8 (i : grid0.Coords) : BitVec 32 :=
  let arg1 : BitVec 32 := BitVec.ofNat 32 (i 1).val
  let c4096_i32_57 : BitVec 32 := 4096#32
  let v112 : BitVec 32 := Scalar.muli arg1 c4096_i32_57
  let c0_i32_49 : BitVec 32 := 0#32
  let c3_i32 : BitVec 32 := 3#32
  let c1_i32_48 : BitVec 32 := 1#32
  let v95 : BitVec 32 := Scalar.muli c3_i32 c1_i32_48
  let v96 : BitVec 32 := Scalar.addi c0_i32_49 v95
  let c1024_i32_58 : BitVec 32 := 1024#32
  let v113 : BitVec 32 := Scalar.muli v96 c1024_i32_58
  let v114 : BitVec 32 := Scalar.addi v112 v113
  v114
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S16384x1 : S16384.ShapeCasts S16384x1
  shapeCasts_S16384_S1x16384 : S16384.ShapeCasts S1x16384
  inb_S1024x1_S1024x1_0_0 : ∀ a, (![0, 0] : Fin 2 → Nat) a + S1024x1.size a ≤ S1024x1.size a
  h_S1024x1 : 0 < S1024x1.numel
  inb_S1x1x16384_S1x1x16384_0_0_0 : ∀ a, (![0, 0, 0] : Fin 3 → Nat) a + S1x1x16384.size a ≤ S1x1x16384.size a
  h_S1x1x16384 : 0 < S1x1x16384.numel
  shapeCasts_S1024x1_S1024x1 : S1024x1.ShapeCasts S1024x1
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  h_S1x1x1024 : 0 < S1x1x1024.numel
  shapeCasts_S1x1x1024_S1024 : S1x1x1024.ShapeCasts S1024
  reduces_S1024x1024_S1024_2 : S1024x1024.Reduces [0] S1024
  shapeCasts_S1024_S1x1x1024 : S1024.ShapeCasts S1x1x1024
  reducesTo_S16384x1_S_d0_1 : S16384x1.ReducesTo [0, 1] S_
  h_S_ : 0 < S_.numel
  reducesTo_S16x1x16384_S1x16384_d0 : S16x1x16384.ReducesTo [0] S1x16384
  reducesTo_S1x16384_S_d0_1 : S1x16384.ReducesTo [0, 1] S_
  hrank0 : 0 < grid0.rank
  k0_mult1_dvd : 1024 ∣ k0_mult1.toNat
  k0_off1_inb : ∀ (r : Fin 4), ∀ a, (k0_off1 (BitVec.ofNat 32 r.val)) a + S1x1024.size a ≤ S1x4096.size a
  k0_mult2_dvd : ∀ i : grid0.Coords, 1024 ∣ (k0_mult2 i).toNat
  k0_off2_inb : ∀ i : grid0.Coords, ∀ (r : Fin 4), ∀ a, (k0_off2 i (BitVec.ofNat 32 r.val)) a + S1x1x1024.size a ≤ S1x1x16384.size a
  k0_mult3_dvd : 1024 ∣ k0_mult3.toNat
  k0_mult4_dvd : ∀ i : grid0.Coords, 1024 ∣ (k0_mult4 i).toNat
  k0_mult5_dvd : 1024 ∣ k0_mult5.toNat
  k0_mult6_dvd : ∀ i : grid0.Coords, 1024 ∣ (k0_mult6 i).toNat
  k0_mult7_dvd : 1024 ∣ k0_mult7.toNat
  k0_mult8_dvd : ∀ i : grid0.Coords, 1024 ∣ (k0_mult8 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x16384.size a
  hwx0_1 : ∀ i : grid0.Coords, EltTy.bits .f32 = 32 ∨ (Rect.block (s := S1x16384) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16384.size a ≤ S16x1x16384.size a
  hwx0_3 : ∀ i : grid0.Coords, EltTy.bits .f32 = 32 ∨ (Rect.block (s := S16x1x16384) S1x1x16384.size (cc0_transform_3 i) (hinb0_3 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S1x16384, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  reducesTo_S16384x16384_S16384_d1 : S16384x16384.ReducesTo [1] S16384
  h_S_ : 0 < S_.numel
  reducesTo_S16384_S_d0 : S16384.ReducesTo [0] S_
  reducesTo_S16384x16384_S16384_d0 : S16384x16384.ReducesTo [0] S16384

variable [Facts₀]

class Facts : Prop extends Facts₀ where

variable [Facts]
-- ==== Proof.BitsBody.lean ====
import proofs.«168027_j59158879535331_2_alg».proof.Proof.Gen.Kernel.Frame
import proofs.«168027_j59158879535331_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

/-!
# The body of the chamfer kernel at one grid point, and the launch around it

The grid is 16 × 4: row tile `I` (1024 entries of `x`) by column tile `j` (4096 entries of `y`), point `t = 4·I + j`.
At a point the body holds, in two output blocks that stay resident over the four column tiles of a row tile,
* the running row minima `minⱼ |xₚ − y_q|` (a 1024 × 1 block), and
* the running column minima `minₚ |xₚ − y_q|` (a 1 × 1 × 16384 block), one 1024-wide strip updated per step.
At `j = 0` both blocks are first filled with `+∞`; at `j ≠ 0` they hold what the point before left.
This module states what each of the two cases leaves in the two blocks (as the list of the stores the run performs),
what the blocks hold after every point (by recursion on the point), and from these the run of the whole program.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch: is this the first column tile? -/

/-- The body's one conditional, as computed from the grid coordinates: `j = 0`. -/
abbrev first (i : grid0.Coords) : Prop :=
  (Scalar.cmpi .ne (Scalar.extui (Scalar.cmpi .eq (BitVec.ofNat 32 (i 1).val) 0#32)) 0#32) = 1#1

/-- It holds exactly at the points `t ≡ 0 (mod 4)`. -/
theorem first_iff : ∀ t : Fin cfg0.N, first (grid0.coords t) ↔ t.val % 4 = 0 :=
  (by decide +kernel : ∀ t : Fin grid0.N, first (grid0.coords t) ↔ t.val % 4 = 0)

/-! ## The staging buffers at a point -/

abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x16384 .f32 := win0_3.stage (cfg0.slots t 3)
abbrev hs3 (t : Fin cfg0.N) : (ms3 t).IsWhole := hstage0_3 ((cfg0.slots t 3).cast nbuf0_3)

/-- A fixed view of the row-minima block's shape, through which its contents are stated. -/
abbrev VRow : View sig .tc .vmem S1024x1 .f32 := (Memref.whole cc0_stg2_0 : Memref sig .tc .vmem S1024x1 .f32).view

/-! ## The two cases of the body, run once each -/

set_option maxHeartbeats 1000000 in
/-- FIRST COLUMN TILE (`j = 0`). Whatever the two output blocks held, the body runs and leaves in them the listed
    stores: the row block is overwritten whole (the `+∞` fill, then four running minima); the column block is filled
    with `+∞` whole and then four of its strips are overwritten. The stores do not depend on the prior contents. -/
noncomputable def runFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) :
    Σ' (L2 : List (View.Piece (Elt F) S1024x1 .f32)), { L3 : List (View.Piece (Elt F) S1x1x16384 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (arg5.view.loc (c : Thread nD τ) ↦[arg5.view.set]{fullShare} arg5.view.writes (Elt F) arg5.view.junk L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact H3

set_option maxHeartbeats 1000000 in
/-- A LATER COLUMN TILE (`j ≠ 0`). From output blocks holding `xo2` (row minima so far) and `xo3` (column minima so
    far), the body runs and leaves the listed stores: the row block overwritten whole four times, and four strips of the
    column block overwritten over `xo3`. -/
noncomputable def runLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) :
    Σ' (L2 : List (View.Piece (Elt F) S1024x1 .f32)), { L3 : List (View.Piece (Elt F) S1x1x16384 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (arg5.view.loc (c : Thread nD τ) ↦[arg5.view.set]{fullShare} arg5.view.writes (Elt F) (harg5.unread xo3) L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact H3

/-! ## What each case leaves in the two blocks -/

/-- In the first case the row block's stores (each through the whole block) cover it. -/
theorem coverFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) (y : S1024x1.Idx) :
    ∃ pc ∈ (runFirst c i arg2 harg2 arg3 harg3 arg4 harg4 arg5 harg5 hc0 x0 x1).1, y ∈ pc.1.set :=
  View.cover_of_tiledL (runFirst c i arg2 harg2 arg3 harg3 arg4 harg4 arg5 harg5 hc0 x0 x1).1 S1024x1.size (by sl_kernel_rfl) y

/-- In the later case too. -/
theorem coverLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) (y : S1024x1.Idx) :
    ∃ pc ∈ (runLater c i arg2 harg2 arg3 harg3 arg4 harg4 arg5 harg5 hc0 x0 x1 xo2 xo3).1, y ∈ pc.1.set :=
  View.cover_of_tiledL (runLater c i arg2 harg2 arg3 harg3 arg4 harg4 arg5 harg5 hc0 x0 x1 xo2 xo3).1 S1024x1.size (by sl_kernel_rfl) y

/-- The row block after the first case: its stores read back. -/
def rowFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) : Vec F S1024x1 .f32 :=
  VRow.read (Elt F) (VRow.writes (Elt F) VRow.junk (runFirst c i arg2 harg2 arg3 harg3 arg4 harg4 arg5 harg5 hc0 x0 x1).1)

/-- The column block after the first case: the `+∞` fill with four strips overwritten. -/
def colFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) : Vec F S1x1x16384 .f32 :=
  arg5.view.read (Elt F) (arg5.view.writes (Elt F) arg5.view.junk (runFirst c i arg2 harg2 arg3 harg3 arg4 harg4 arg5 harg5 hc0 x0 x1).2.1)

/-- The row block after a later case. -/
def rowLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) : Vec F S1024x1 .f32 :=
  VRow.read (Elt F) (VRow.writes (Elt F) VRow.junk (runLater c i arg2 harg2 arg3 harg3 arg4 harg4 arg5 harg5 hc0 x0 x1 xo2 xo3).1)

/-- The column block after a later case: four strips overwritten over what it held. -/
def colLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) : Vec F S1x1x16384 .f32 :=
  arg5.view.read (Elt F) (arg5.view.writes (Elt F) (harg5.unread xo3) (runLater c i arg2 harg2 arg3 harg3 arg4 harg4 arg5 harg5 hc0 x0 x1 xo2 xo3).2.1)

/-! ## The two blocks after each point -/

/-- What the row block and the column block hold after the body at point `n`: at `n ≡ 0 (mod 4)` the first case, at the
    input blocks of the point; otherwise the later case over what the point before left. -/
def blocksAt (c : Dev nD) : (n : ℕ) → n < cfg0.N → Vec F S1024x1 .f32 × Vec F S1x1x16384 .f32
  | 0, hn =>
    (rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (iblk m c 0 ⟨0, hn⟩) (iblk m c 1 ⟨0, hn⟩),
     colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (iblk m c 0 ⟨0, hn⟩) (iblk m c 1 ⟨0, hn⟩))
  | n + 1, hn =>
    if h0 : (n + 1) % 4 = 0 then
      (rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (iblk m c 0 ⟨n + 1, hn⟩) (iblk m c 1 ⟨n + 1, hn⟩),
       colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (iblk m c 0 ⟨n + 1, hn⟩) (iblk m c 1 ⟨n + 1, hn⟩))
    else
      (rowLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) (iblk m c 0 ⟨n + 1, hn⟩) (iblk m c 1 ⟨n + 1, hn⟩) (blocksAt c n (Nat.lt_of_succ_lt hn)).1 (blocksAt c n (Nat.lt_of_succ_lt hn)).2,
       colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) (iblk m c 0 ⟨n + 1, hn⟩) (iblk m c 1 ⟨n + 1, hn⟩) (blocksAt c n (Nat.lt_of_succ_lt hn)).1 (blocksAt c n (Nat.lt_of_succ_lt hn)).2)

/-- `blocksAt` at a first-column-tile point. -/
theorem blocksAt_first (c : Dev nD) (t : Fin cfg0.N) (h0 : t.val % 4 = 0) :
    blocksAt m c t.val t.isLt =
      (rowFirst c (grid0.coords t) (ms0 t) (hs0 t) (ms1 t) (hs1 t) (ms2 t) (hs2 t) (ms3 t) (hs3 t) ((first_iff t).mpr h0) (iblk m c 0 t) (iblk m c 1 t),
       colFirst c (grid0.coords t) (ms0 t) (hs0 t) (ms1 t) (hs1 t) (ms2 t) (hs2 t) (ms3 t) (hs3 t) ((first_iff t).mpr h0) (iblk m c 0 t) (iblk m c 1 t)) := by
  obtain ⟨n, hn⟩ := t
  cases n with
  | zero => exact rfl
  | succ n => exact (dif_pos h0).trans rfl

/-- `blocksAt` at a later point: over what the point before left. -/
theorem blocksAt_later (c : Dev nD) (t : Fin cfg0.N) (h0 : ¬t.val % 4 = 0) :
    blocksAt m c t.val t.isLt =
      (rowLater c (grid0.coords t) (ms0 t) (hs0 t) (ms1 t) (hs1 t) (ms2 t) (hs2 t) (ms3 t) (hs3 t) (fun h => h0 ((first_iff t).mp h)) (iblk m c 0 t) (iblk m c 1 t)
          (blocksAt m c (t.val - 1) (Nat.lt_of_le_of_lt (Nat.sub_le _ _) t.isLt)).1 (blocksAt m c (t.val - 1) (Nat.lt_of_le_of_lt (Nat.sub_le _ _) t.isLt)).2,
       colLater c (grid0.coords t) (ms0 t) (hs0 t) (ms1 t) (hs1 t) (ms2 t) (hs2 t) (ms3 t) (hs3 t) (fun h => h0 ((first_iff t).mp h)) (iblk m c 0 t) (iblk m c 1 t)
          (blocksAt m c (t.val - 1) (Nat.lt_of_le_of_lt (Nat.sub_le _ _) t.isLt)).1 (blocksAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The launch's proof data -/

/-- On core `c`: the arrays as the region finds them; after the body at point `t` the two inputs' buffers at their
    blocks and the two outputs' at `blocksAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (blocksAt m c t.val t.isLt).1
    | ⟨3, _⟩ => (blocksAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (blocksAt m c t.val t.isLt).1 := by dsimp only [dats]
theorem after3 (c : Dev nD) (t : Fin cfg0.N) : (dats m 0 c).after 3 t = (blocksAt m c t.val t.isLt).2 := by dsimp only [dats]

/-- Each input's staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later column tile the row block still holds what the point before left: it is written back only after
    the last column tile of a row tile. -/
theorem before2_later (c : Dev nD) (t : Fin cfg0.N) (h0 : ¬t.val % 4 = 0) (d) :
    (dats m 0 c).before 2 t d = (blocksAt m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- And so does the column block. -/
theorem before3_later (c : Dev nD) (t : Fin cfg0.N) (h0 : ¬t.val % 4 = 0) (d) :
    (dats m 0 c).before 3 t d = (blocksAt m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is a first or a later column tile; at a
    later one the outputs' buffers hold what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 64 := lt_of_lt_of_eq t.isLt (show cfg0.N = 64 from N_0)
  by_cases h0 : t.val % 4 = 0
  · rw [blocksAt_first m c t h0]
    dsimp only
    unfold rowFirst colFirst
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst c _ _ _ _ _ _ _ _ _ _ _ _)
    · unfold owns; iexists _; isplitr
      swap; · iexact H3
      ipureintro; rfl
  · rw [blocksAt_later m c t h0]
    dsimp only
    simp only [before2_later m c t h0, before3_later m c t h0]
    unfold rowLater colLater
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater c _ _ _ _ _ _ _ _ _ _ _ _ _ _)
    · unfold owns; iexists _; isplitr
      swap; · iexact H3
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every array of the launch at what the proof data say
    and every other buffer as the host operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealBody.lean ====
import proofs.«168027_j59158879535331_2_alg».proof.Proof.Gen.KernelIdeal.Frame
import proofs.«168027_j59158879535331_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

/-!
# The body of the chamfer kernel at one grid point, and the launch around it

The grid is 16 × 4: row tile `I` (1024 entries of `x`) by column tile `j` (4096 entries of `y`), point `t = 4·I + j`.
At a point the body holds, in two output blocks that stay resident over the four column tiles of a row tile,
* the running row minima `minⱼ |xₚ − y_q|` (a 1024 × 1 block), and
* the running column minima `minₚ |xₚ − y_q|` (a 1 × 1 × 16384 block), one 1024-wide strip updated per step.
At `j = 0` both blocks are first filled with `+∞`; at `j ≠ 0` they hold what the point before left.
This module states what each of the two cases leaves in the two blocks (as the list of the stores the run performs),
what the blocks hold after every point (by recursion on the point), and from these the run of the whole program.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch: is this the first column tile? -/

/-- The body's one conditional, as computed from the grid coordinates: `j = 0`. -/
abbrev first (i : grid0.Coords) : Prop :=
  (Scalar.cmpi .ne (Scalar.extui (Scalar.cmpi .eq (BitVec.ofNat 32 (i 1).val) 0#32)) 0#32) = 1#1

/-- It holds exactly at the points `t ≡ 0 (mod 4)`. -/
theorem first_iff : ∀ t : Fin cfg0.N, first (grid0.coords t) ↔ t.val % 4 = 0 :=
  (by decide +kernel : ∀ t : Fin grid0.N, first (grid0.coords t) ↔ t.val % 4 = 0)

/-! ## The staging buffers at a point -/

abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x16384 .f32 := win0_3.stage (cfg0.slots t 3)
abbrev hs3 (t : Fin cfg0.N) : (ms3 t).IsWhole := hstage0_3 ((cfg0.slots t 3).cast nbuf0_3)

/-- A fixed view of the row-minima block's shape, through which its contents are stated. -/
abbrev VRow : View sig .tc .vmem S1024x1 .f32 := (Memref.whole cc0_stg2_0 : Memref sig .tc .vmem S1024x1 .f32).view

/-! ## The two cases of the body, run once each -/

set_option maxHeartbeats 1000000 in
/-- FIRST COLUMN TILE (`j = 0`). Whatever the two output blocks held, the body runs and leaves in them the listed
    stores: the row block is overwritten whole (the `+∞` fill, then four running minima); the column block is filled
    with `+∞` whole and then four of its strips are overwritten. The stores do not depend on the prior contents. -/
noncomputable def runFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) :
    Σ' (L2 : List (View.Piece (Elt F) S1024x1 .f32)), { L3 : List (View.Piece (Elt F) S1x1x16384 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (arg5.view.loc (c : Thread nD τ) ↦[arg5.view.set]{fullShare} arg5.view.writes (Elt F) arg5.view.junk L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact H3

set_option maxHeartbeats 1000000 in
/-- A LATER COLUMN TILE (`j ≠ 0`). From output blocks holding `xo2` (row minima so far) and `xo3` (column minima so
    far), the body runs and leaves the listed stores: the row block overwritten whole four times, and four strips of the
    column block overwritten over `xo3`. -/
noncomputable def runLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) :
    Σ' (L2 : List (View.Piece (Elt F) S1024x1 .f32)), { L3 : List (View.Piece (Elt F) S1x1x16384 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (arg5.view.loc (c : Thread nD τ) ↦[arg5.view.set]{fullShare} arg5.view.writes (Elt F) (harg5.unread xo3) L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact H3

/-! ## What each case leaves in the two blocks -/

/-- In the first case the row block's stores (each through the whole block) cover it. -/
theorem coverFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) (y : S1024x1.Idx) :
    ∃ pc ∈ (runFirst c i arg2 harg2 arg3 harg3 arg4 harg4 arg5 harg5 hc0 x0 x1).1, y ∈ pc.1.set :=
  View.cover_of_tiledL (runFirst c i arg2 harg2 arg3 harg3 arg4 harg4 arg5 harg5 hc0 x0 x1).1 S1024x1.size (by sl_kernel_rfl) y

/-- In the later case too. -/
theorem coverLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) (y : S1024x1.Idx) :
    ∃ pc ∈ (runLater c i arg2 harg2 arg3 harg3 arg4 harg4 arg5 harg5 hc0 x0 x1 xo2 xo3).1, y ∈ pc.1.set :=
  View.cover_of_tiledL (runLater c i arg2 harg2 arg3 harg3 arg4 harg4 arg5 harg5 hc0 x0 x1 xo2 xo3).1 S1024x1.size (by sl_kernel_rfl) y

/-- The row block after the first case: its stores read back. -/
def rowFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) : Vec F S1024x1 .f32 :=
  VRow.read (Elt F) (VRow.writes (Elt F) VRow.junk (runFirst c i arg2 harg2 arg3 harg3 arg4 harg4 arg5 harg5 hc0 x0 x1).1)

/-- The column block after the first case: the `+∞` fill with four strips overwritten. -/
def colFirst (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : first i)
    (x0 : Vec F S1024x1 .f32) (x1 : Vec F S1x4096 .f32) : Vec F S1x1x16384 .f32 :=
  arg5.view.read (Elt F) (arg5.view.writes (Elt F) arg5.view.junk (runFirst c i arg2 harg2 arg3 harg3 arg4 harg4 arg5 harg5 hc0 x0 x1).2.1)

/-- The row block after a later case. -/
def rowLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) : Vec F S1024x1 .f32 :=
  VRow.read (Elt F) (VRow.writes (Elt F) VRow.junk (runLater c i arg2 harg2 arg3 harg3 arg4 harg4 arg5 harg5 hc0 x0 x1 xo2 xo3).1)

/-- The column block after a later case: four strips overwritten over what it held. -/
def colLater (c : Dev nD) (i : grid0.Coords) (arg2 : Memref sig .tc .vmem S1024x1 .f32) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1x1x16384 .f32) (harg5 : arg5.IsWhole) (hc0 : ¬first i)
    (x0 : Vec F S1024x1 .f32) (x1 : Vec F S1x4096 .f32) (xo2 : Vec F S1024x1 .f32) (xo3 : Vec F S1x1x16384 .f32) : Vec F S1x1x16384 .f32 :=
  arg5.view.read (Elt F) (arg5.view.writes (Elt F) (harg5.unread xo3) (runLater c i arg2 harg2 arg3 harg3 arg4 harg4 arg5 harg5 hc0 x0 x1 xo2 xo3).2.1)

/-! ## The two blocks after each point -/

/-- What the row block and the column block hold after the body at point `n`: at `n ≡ 0 (mod 4)` the first case, at the
    input blocks of the point; otherwise the later case over what the point before left. -/
def blocksAt (c : Dev nD) : (n : ℕ) → n < cfg0.N → Vec F S1024x1 .f32 × Vec F S1x1x16384 .f32
  | 0, hn =>
    (rowFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (iblk m c 0 ⟨0, hn⟩) (iblk m c 1 ⟨0, hn⟩),
     colFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (iblk m c 0 ⟨0, hn⟩) (iblk m c 1 ⟨0, hn⟩))
  | n + 1, hn =>
    if h0 : (n + 1) % 4 = 0 then
      (rowFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (iblk m c 0 ⟨n + 1, hn⟩) (iblk m c 1 ⟨n + 1, hn⟩),
       colFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (iblk m c 0 ⟨n + 1, hn⟩) (iblk m c 1 ⟨n + 1, hn⟩))
    else
      (rowLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) (iblk m c 0 ⟨n + 1, hn⟩) (iblk m c 1 ⟨n + 1, hn⟩) (blocksAt c n (Nat.lt_of_succ_lt hn)).1 (blocksAt c n (Nat.lt_of_succ_lt hn)).2,
       colLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) (iblk m c 0 ⟨n + 1, hn⟩) (iblk m c 1 ⟨n + 1, hn⟩) (blocksAt c n (Nat.lt_of_succ_lt hn)).1 (blocksAt c n (Nat.lt_of_succ_lt hn)).2)

/-- `blocksAt` at a first-column-tile point. -/
theorem blocksAt_first (c : Dev nD) (t : Fin cfg0.N) (h0 : t.val % 4 = 0) :
    blocksAt m c t.val t.isLt =
      (rowFirst c (grid0.coords t) (ms0 t) (hs0 t) (ms1 t) (hs1 t) (ms2 t) (hs2 t) (ms3 t) (hs3 t) ((first_iff t).mpr h0) (iblk m c 0 t) (iblk m c 1 t),
       colFirst c (grid0.coords t) (ms0 t) (hs0 t) (ms1 t) (hs1 t) (ms2 t) (hs2 t) (ms3 t) (hs3 t) ((first_iff t).mpr h0) (iblk m c 0 t) (iblk m c 1 t)) := by
  obtain ⟨n, hn⟩ := t
  cases n with
  | zero => exact rfl
  | succ n => exact (dif_pos h0).trans rfl

/-- `blocksAt` at a later point: over what the point before left. -/
theorem blocksAt_later (c : Dev nD) (t : Fin cfg0.N) (h0 : ¬t.val % 4 = 0) :
    blocksAt m c t.val t.isLt =
      (rowLater c (grid0.coords t) (ms0 t) (hs0 t) (ms1 t) (hs1 t) (ms2 t) (hs2 t) (ms3 t) (hs3 t) (fun h => h0 ((first_iff t).mp h)) (iblk m c 0 t) (iblk m c 1 t)
          (blocksAt m c (t.val - 1) (Nat.lt_of_le_of_lt (Nat.sub_le _ _) t.isLt)).1 (blocksAt m c (t.val - 1) (Nat.lt_of_le_of_lt (Nat.sub_le _ _) t.isLt)).2,
       colLater c (grid0.coords t) (ms0 t) (hs0 t) (ms1 t) (hs1 t) (ms2 t) (hs2 t) (ms3 t) (hs3 t) (fun h => h0 ((first_iff t).mp h)) (iblk m c 0 t) (iblk m c 1 t)
          (blocksAt m c (t.val - 1) (Nat.lt_of_le_of_lt (Nat.sub_le _ _) t.isLt)).1 (blocksAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The launch's proof data -/

/-- On core `c`: the arrays as the region finds them; after the body at point `t` the two inputs' buffers at their
    blocks and the two outputs' at `blocksAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (blocksAt m c t.val t.isLt).1
    | ⟨3, _⟩ => (blocksAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (blocksAt m c t.val t.isLt).1 := by dsimp only [dats]
theorem after3 (c : Dev nD) (t : Fin cfg0.N) : (dats m 0 c).after 3 t = (blocksAt m c t.val t.isLt).2 := by dsimp only [dats]

/-- Each input's staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later column tile the row block still holds what the point before left: it is written back only after
    the last column tile of a row tile. -/
theorem before2_later (c : Dev nD) (t : Fin cfg0.N) (h0 : ¬t.val % 4 = 0) (d) :
    (dats m 0 c).before 2 t d = (blocksAt m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- And so does the column block. -/
theorem before3_later (c : Dev nD) (t : Fin cfg0.N) (h0 : ¬t.val % 4 = 0) (d) :
    (dats m 0 c).before 3 t d = (blocksAt m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is a first or a later column tile; at a
    later one the outputs' buffers hold what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 64 := lt_of_lt_of_eq t.isLt (show cfg0.N = 64 from N_0)
  by_cases h0 : t.val % 4 = 0
  · rw [blocksAt_first m c t h0]
    dsimp only
    unfold rowFirst colFirst
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst c _ _ _ _ _ _ _ _ _ _ _ _)
    · unfold owns; iexists _; isplitr
      swap; · iexact H3
      ipureintro; rfl
  · rw [blocksAt_later m c t h0]
    dsimp only
    simp only [before2_later m c t h0, before3_later m c t h0]
    unfold rowLater colLater
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater c _ _ _ _ _ _ _ _ _ _ _ _ _ _)
    · unfold owns; iexists _; isplitr
      swap; · iexact H3
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every array of the launch at what the proof data say
    and every other buffer as the host operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibInf.lean ====
import Idealize.ShloMosaic.PureOps.Ideal
import Idealize.ShloMosaic.PureOps.Ideal.Laws

/-!
# Minima over finite index ranges, on the extended reals

General facts about `min`-folds and infima over `Fin n`: the `+∞` word is the top element, a `min`-fold from `⊤` over
all of `Fin n` is the infimum, an infimum over `Fin (a · b)` splits into `a` blocks of `b`, and a running minimum
that has seen a prefix of the range and then meets the next block has seen the longer prefix.
-/

noncomputable section

namespace Idealize.ShloMosaic.LibInf

open Idealize.ShloMosaic

/-- The f32 word `0x7F800000` denotes `+∞`, the top of the extended reals. -/
theorem ofBits_pinf : Ideal.ofBits .f32 0x7F800000#32 = (⊤ : EReal) := by
  simp [Ideal.ofBits, Ideal.ieee]

/-- A `min`-fold from `⊤` over every index is the infimum. -/
theorem fold_min_top {n : ℕ} (g : Fin n → EReal) :
    (Finset.univ : Finset (Fin n)).fold min (⊤ : EReal) g = ⨅ k, g k := by
  rw [← Finset.inf_univ_eq_iInf]
  rfl

/-- The same from the `+∞` word. -/
theorem fold_min_pinf {n : ℕ} (g : Fin n → EReal) :
    (Finset.univ : Finset (Fin n)).fold min (Ideal.ofBits .f32 0x7F800000#32) g = ⨅ k, g k := by
  rw [ofBits_pinf, fold_min_top]

/-- An infimum over `N = a · b` indices is the infimum over `a` blocks of the infima over each block's `b` indices. -/
theorem iInf_blocks {N a b : ℕ} (hN : N = a * b) (f : Fin N → EReal) :
    ⨅ k, f k = ⨅ i : Fin a, ⨅ j : Fin b, f ⟨b * i.val + j.val, by
      subst hN
      calc b * i.val + j.val < b * i.val + b := Nat.add_lt_add_left j.isLt _
        _ = b * (i.val + 1) := (Nat.mul_succ _ _).symm
        _ ≤ b * a := Nat.mul_le_mul_left _ i.isLt
        _ = a * b := Nat.mul_comm _ _⟩ := by
  subst hN
  refine le_antisymm (le_iInf fun i => le_iInf fun j => iInf_le _ _) (le_iInf fun k => ?_)
  have hab : a * b ≠ 0 := fun h0 => absurd k.isLt (by omega)
  have hb : 0 < b := Nat.pos_of_ne_zero fun h => hab (by rw [h, Nat.mul_zero])
  have hk : k.val / b < a := by
    rw [Nat.div_lt_iff_lt_mul hb]; exact k.isLt
  refine iInf_le_of_le ⟨k.val / b, hk⟩ (iInf_le_of_le ⟨k.val % b, Nat.mod_lt _ hb⟩ (le_of_eq (congrArg f (Fin.ext ?_))))
  exact Nat.div_add_mod _ _

/-- The infimum over the indices below a bound `p` (the others read `⊤`). -/
def infBelow {N : ℕ} (f : Fin N → EReal) (p : ℕ) : EReal := ⨅ k : Fin N, if k.val < p then f k else ⊤

theorem infBelow_zero {N : ℕ} (f : Fin N → EReal) : infBelow f 0 = ⊤ := by
  unfold infBelow
  simp

theorem infBelow_all {N : ℕ} (f : Fin N → EReal) (p : ℕ) (hp : N ≤ p) : infBelow f p = ⨅ k, f k := by
  unfold infBelow
  exact iInf_congr fun k => if_pos (lt_of_lt_of_le k.isLt hp)

/-- A running minimum that has seen the indices below `p` and meets the block `p … p + b − 1` has seen those below
    `p + b`. -/
theorem infBelow_step {N : ℕ} (f : Fin N → EReal) (p b : ℕ) (hpb : p + b ≤ N) :
    min (infBelow f p) (⨅ j : Fin b, f ⟨p + j.val, lt_of_lt_of_le (Nat.add_lt_add_left j.isLt _) hpb⟩) = infBelow f (p + b) := by
  unfold infBelow
  refine le_antisymm (le_iInf fun k => ?_) (le_min (le_iInf fun k => ?_) (le_iInf fun j => ?_))
  · by_cases hk : k.val < p + b
    · rw [if_pos hk]
      by_cases hk' : k.val < p
      · exact (min_le_left _ _).trans ((iInf_le _ k).trans (le_of_eq (if_pos hk')))
      · refine (min_le_right _ _).trans ((iInf_le _ (⟨k.val - p, by omega⟩ : Fin b)).trans (le_of_eq (congrArg f (Fin.ext ?_))))
        show p + (k.val - p) = k.val
        omega
    · rw [if_neg hk]; exact le_top
  · by_cases hk' : k.val < p
    · rw [if_pos hk']
      exact (iInf_le _ k).trans (le_of_eq (if_pos (by omega)))
    · rw [if_neg hk']; exact le_top
  · refine (iInf_le _ (⟨p + j.val, lt_of_lt_of_le (Nat.add_lt_add_left j.isLt _) hpb⟩ : Fin N)).trans (le_of_eq (if_pos ?_))
    show p + j.val < p + b
    exact Nat.add_lt_add_left j.isLt _

end Idealize.ShloMosaic.LibInf

end
-- ==== Proof.Payloads.lean ====
import proofs.«168027_j59158879535331_2_alg».proof.Proof.Gen.KernelIdeal.Skeleton
import proofs.«168027_j59158879535331_2_alg».proof.Proof.LibInf
import Idealize.ShloMosaic.Lib.ValueIdx
import Idealize.ShloMosaic.Lib.ValueLayout
import Idealize.ShloMosaic.Lib.Pipeline.Value
import Idealize.ShloMosaic.PureOps.Ideal.Laws

/-!
# The body's arithmetic, read at an index on the extended reals

One strip step of the body takes the column block `a` (1024 entries of `x`) and a strip `b` (1024 entries of `y`),
forms the matrix `|a_p − b_q|`, and lowers
* the running row minima by the matrix's row minima: `acc_p ↦ min(acc_p, min_q |a_p − b_q|)`,
* the strip of running column minima by its column minima: `cur_q ↦ min(cur_q, min_p |a_p − b_q|)`.
The `+∞` word the reductions start from is the top element, so each reduction is an infimum.
-/

noncomputable section

namespace Cert.KernelIdeal.Payloads

open Cert.KernelIdeal Cert.KernelIdeal.Gen
open Idealize.ShloMosaic Idealize.ShloMosaic.TcCoe Idealize.ShloMosaic.ValueIdx Idealize.ShloMosaic.LibInf

/-- `|a_p − b_q|` for a column `a` and a row `b`. -/
def gap (a : FVec Ideal S1024x1 .f32) (b : FVec Ideal S1x1024 .f32) (p q : Fin 1024) : EReal :=
  FloatOps.absf (F := Ideal) (φ := .f32) (a (ix2 p (0 : Fin 1)) - b (ix2 (0 : Fin 1) q))

/-- A column broadcast across the lanes reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The matrix of one strip step at `(p, q)`. -/
theorem matrix_apply (a : FVec Ideal S1024x1 .f32) (b : FVec Ideal S1x1024 .f32) (p q : Fin 1024) :
    k0_pay9 (F := Ideal) a b (ix2 p q) = gap a b p q := by
  unfold k0_pay9 gap
  show FloatOps.absf (FloatOps.subf (broadcastTo S1024x1024 a broadcasts_S1024x1_S1024x1024 (ix2 p q))
    (broadcastTo S1024x1024 (shapeCast S1x1024 b shapeCasts_S1x1024_S1x1024) broadcasts_S1x1024_S1024x1024 (ix2 p q))) = _
  rw [broadcastTo_a1_ab_apply, broadcastTo_1b_ab_apply, shapeCast_self]
  rfl

/-- Row `p` of a 1024 × 1024 matrix, lowered into `⊤`, is the infimum over its lanes. -/
theorem rowReduce_apply (M : FVec Ideal S1024x1024 .f32) (h : S1024x1024.Reduces [1] S1024) (hφ : FKind.Formats .f32)
    (hacc : (0x7F800000#32 : BitVec 32) = FKind.minimumf.neutral .f32 hφ) (p : Fin 1024) :
    multiReduction .minimumf [1] S1024 M 0x7F800000#32 h hφ hacc (ix1 p) = ⨅ q : Fin 1024, M (ix2 p q) := by
  rw [multiReduction_minimumf_eq_fold, h.fold_filter_drop_single]
  refine (fold_min_pinf _).trans (iInf_congr fun q => congrArg M (funext fun a => Fin.ext ?_))
  match a with
  | ⟨0, _⟩ => rfl
  | ⟨1, _⟩ => rfl

/-- Column `q` likewise is the infimum over its sublanes. -/
theorem colReduce_apply (M : FVec Ideal S1024x1024 .f32) (h : S1024x1024.Reduces [0] S1024) (hφ : FKind.Formats .f32)
    (hacc : (0x7F800000#32 : BitVec 32) = FKind.minimumf.neutral .f32 hφ) (q : Fin 1024) :
    multiReduction .minimumf [0] S1024 M 0x7F800000#32 h hφ hacc (ix1 q) = ⨅ p : Fin 1024, M (ix2 p q) := by
  rw [multiReduction_minimumf_eq_fold, h.fold_filter_drop_single]
  refine (fold_min_pinf _).trans (iInf_congr fun p => congrArg M (funext fun a => Fin.ext ?_))
  match a with
  | ⟨0, _⟩ => rfl
  | ⟨1, _⟩ => rfl

/-- A vector of 1024 viewed as a column reads, at `(p, 0)`, the vector at `p`. -/
theorem castColumn_apply {α : Type} (v : S1024.Idx → α) (h : S1024.ShapeCasts S1024x1) (p : Fin 1024) :
    shapeCast S1024x1 v h (ix2 p (0 : Fin 1)) = v (ix1 p) :=
  shapeCast_apply v h _ _ (by
    rw [Shape.rowMajor_val_two, Shape.rowMajor_val_one]
    show p.val = p.val * 1 + 0
    omega)

/-- A 1 × 1 × 1024 strip viewed as a vector reads, at `q`, the strip at `(0, 0, q)`. -/
theorem castStrip_apply {α : Type} (v : S1x1x1024.Idx → α) (h : S1x1x1024.ShapeCasts S1024) (q : Fin 1024) :
    shapeCast S1024 v h (ix1 q) = v (ix3 (0 : Fin 1) (0 : Fin 1) q) :=
  shapeCast_apply v h _ _ (by
    rw [Shape.rowMajor_val_three, Shape.rowMajor_val_one]
    show (0 * 1 + 0) * 1024 + q.val = q.val
    omega)

/-- And back. -/
theorem castToStrip_apply {α : Type} (v : S1024.Idx → α) (h : S1024.ShapeCasts S1x1x1024) (q : Fin 1024) :
    shapeCast S1x1x1024 v h (ix3 (0 : Fin 1) (0 : Fin 1) q) = v (ix1 q) :=
  shapeCast_apply v h _ _ (by
    rw [Shape.rowMajor_val_three, Shape.rowMajor_val_one]
    show q.val = (0 * 1 + 0) * 1024 + q.val
    omega)

/-- THE ROW STEP at `p`: the running minimum meets the matrix row's infimum. -/
theorem rowStep_apply (M : FVec Ideal S1024x1024 .f32) (acc : FVec Ideal S1024x1 .f32) (h : S1024x1024.Reduces [1] S1024)
    (hφ : FKind.Formats .f32) (hacc : (0x7F800000#32 : BitVec 32) = FKind.minimumf.neutral .f32 hφ)
    (hc : S1024.ShapeCasts S1024x1) (p : Fin 1024) :
    minimumf acc (shapeCast S1024x1 (multiReduction .minimumf [1] S1024 M 0x7F800000#32 h hφ hacc) hc) (ix2 p (0 : Fin 1))
      = min (acc (ix2 p (0 : Fin 1))) (⨅ q : Fin 1024, M (ix2 p q)) := by
  rw [minimumf_apply, castColumn_apply, rowReduce_apply]

/-- THE COLUMN STEP at `q`: the strip's running minimum meets the matrix column's infimum. -/
theorem colStep_apply (M : FVec Ideal S1024x1024 .f32) (cur : FVec Ideal S1x1x1024 .f32) (h : S1024x1024.Reduces [0] S1024)
    (hφ : FKind.Formats .f32) (hacc : (0x7F800000#32 : BitVec 32) = FKind.minimumf.neutral .f32 hφ)
    (hc : S1x1x1024.ShapeCasts S1024) (hc' : S1024.ShapeCasts S1x1x1024) (q : Fin 1024) :
    shapeCast S1x1x1024 (minimumf (shapeCast S1024 cur hc) (multiReduction .minimumf [0] S1024 M 0x7F800000#32 h hφ hacc)) hc'
        (ix3 (0 : Fin 1) (0 : Fin 1) q)
      = min (cur (ix3 (0 : Fin 1) (0 : Fin 1) q)) (⨅ p : Fin 1024, M (ix2 p q)) := by
  rw [castToStrip_apply, minimumf_apply, castStrip_apply, colReduce_apply]

/-! ## The eight store payloads -/

/-- The infimum of row `p` of one strip's matrix. -/
def rowInf (a : FVec Ideal S1024x1 .f32) (b : FVec Ideal S1x1024 .f32) (p : Fin 1024) : EReal := ⨅ q : Fin 1024, gap a b p q
/-- The infimum of column `q` of one strip's matrix. -/
def colInf (a : FVec Ideal S1024x1 .f32) (b : FVec Ideal S1x1024 .f32) (q : Fin 1024) : EReal := ⨅ p : Fin 1024, gap a b p q

theorem pay5_eq (a : FVec Ideal S1024x1 .f32) : k0_pay5 (F := Ideal) a = a := shapeCast_self _ _
theorem pay16_eq (a : FVec Ideal S1024x1 .f32) : k0_pay16 (F := Ideal) a = a := shapeCast_self _ _

theorem pay7_apply (a : FVec Ideal S1024x1 .f32) (b : FVec Ideal S1x1024 .f32) (acc : FVec Ideal S1024x1 .f32) (p : Fin 1024) :
    k0_pay7 (F := Ideal) a b acc (ix2 p (0 : Fin 1)) = min (acc (ix2 p (0 : Fin 1))) (rowInf a b p) := by
  unfold k0_pay7 rowInf
  refine (rowStep_apply (k0_pay6 a b) (shapeCast S1024x1 acc shapeCasts_S1024x1_S1024x1) _ _ _ _ p).trans ?_
  rw [shapeCast_self]
  exact congrArg _ (iInf_congr fun q => by rw [show k0_pay6 (F := Ideal) a b = k0_pay9 (k0_pay5 a) b from rfl, pay5_eq, matrix_apply])

theorem pay10_apply (a : FVec Ideal S1024x1 .f32) (b : FVec Ideal S1x1024 .f32) (acc : FVec Ideal S1024x1 .f32) (p : Fin 1024) :
    k0_pay10 (F := Ideal) a b acc (ix2 p (0 : Fin 1)) = min (acc (ix2 p (0 : Fin 1))) (rowInf a b p) := by
  unfold k0_pay10 rowInf
  refine (rowStep_apply (k0_pay9 a b) (shapeCast S1024x1 acc shapeCasts_S1024x1_S1024x1) _ _ _ _ p).trans ?_
  rw [shapeCast_self]
  exact congrArg _ (iInf_congr fun q => matrix_apply a b p q)

theorem pay13_apply (a : FVec Ideal S1024x1 .f32) (b : FVec Ideal S1x1024 .f32) (acc : FVec Ideal S1024x1 .f32) (p : Fin 1024) :
    k0_pay13 (F := Ideal) a b acc (ix2 p (0 : Fin 1)) = min (acc (ix2 p (0 : Fin 1))) (rowInf a b p) := by
  unfold k0_pay13 rowInf
  refine (rowStep_apply (k0_pay12 a b) (shapeCast S1024x1 acc shapeCasts_S1024x1_S1024x1) _ _ _ _ p).trans ?_
  rw [shapeCast_self]
  exact congrArg _ (iInf_congr fun q => by rw [show k0_pay12 (F := Ideal) a b = k0_pay9 a b from rfl, matrix_apply])

theorem pay1_apply (a : FVec Ideal S1024x1 .f32) (b : FVec Ideal S1x1024 .f32) (acc : FVec Ideal S1024x1 .f32) (p : Fin 1024) :
    k0_pay1 (F := Ideal) (k0_pay15 a b) acc (ix2 p (0 : Fin 1)) = min (acc (ix2 p (0 : Fin 1))) (rowInf a b p) := by
  unfold k0_pay1 rowInf
  refine (rowStep_apply (k0_pay15 a b) acc _ _ _ _ p).trans ?_
  exact congrArg _ (iInf_congr fun q => by rw [show k0_pay15 (F := Ideal) a b = k0_pay9 a b from rfl, matrix_apply])

theorem pay8_apply (a : FVec Ideal S1024x1 .f32) (b : FVec Ideal S1x1024 .f32) (cur : FVec Ideal S1x1x1024 .f32) (q : Fin 1024) :
    k0_pay8 (F := Ideal) a b cur (ix3 (0 : Fin 1) (0 : Fin 1) q) = min (cur (ix3 (0 : Fin 1) (0 : Fin 1) q)) (colInf a b q) := by
  unfold k0_pay8 colInf
  refine (colStep_apply (k0_pay6 a b) cur _ _ _ _ _ q).trans ?_
  exact congrArg _ (iInf_congr fun p => by rw [show k0_pay6 (F := Ideal) a b = k0_pay9 (k0_pay5 a) b from rfl, pay5_eq, matrix_apply])

theorem pay11_apply (a : FVec Ideal S1024x1 .f32) (b : FVec Ideal S1x1024 .f32) (cur : FVec Ideal S1x1x1024 .f32) (q : Fin 1024) :
    k0_pay11 (F := Ideal) a b cur (ix3 (0 : Fin 1) (0 : Fin 1) q) = min (cur (ix3 (0 : Fin 1) (0 : Fin 1) q)) (colInf a b q) := by
  unfold k0_pay11 colInf
  refine (colStep_apply (k0_pay9 a b) cur _ _ _ _ _ q).trans ?_
  exact congrArg _ (iInf_congr fun p => matrix_apply a b p q)

theorem pay14_apply (a : FVec Ideal S1024x1 .f32) (b : FVec Ideal S1x1024 .f32) (cur : FVec Ideal S1x1x1024 .f32) (q : Fin 1024) :
    k0_pay14 (F := Ideal) a b cur (ix3 (0 : Fin 1) (0 : Fin 1) q) = min (cur (ix3 (0 : Fin 1) (0 : Fin 1) q)) (colInf a b q) := by
  unfold k0_pay14 colInf
  refine (colStep_apply (k0_pay12 a b) cur _ _ _ _ _ q).trans ?_
  exact congrArg _ (iInf_congr fun p => by rw [show k0_pay12 (F := Ideal) a b = k0_pay9 a b from rfl, matrix_apply])

theorem pay2_apply (a : FVec Ideal S1024x1 .f32) (b : FVec Ideal S1x1024 .f32) (cur : FVec Ideal S1x1x1024 .f32) (q : Fin 1024) :
    k0_pay2 (F := Ideal) (k0_pay15 a b) cur (ix3 (0 : Fin 1) (0 : Fin 1) q) = min (cur (ix3 (0 : Fin 1) (0 : Fin 1) q)) (colInf a b q) := by
  unfold k0_pay2 colInf
  refine (colStep_apply (k0_pay15 a b) cur _ _ _ _ _ q).trans ?_
  exact congrArg _ (iInf_congr fun p => by rw [show k0_pay15 (F := Ideal) a b = k0_pay9 a b from rfl, matrix_apply])

/-- The `+∞` fills. -/
theorem pay3_apply (i : S1024x1.Idx) : k0_pay3 (F := Ideal) i = ⊤ := by
  unfold k0_pay3
  show Ideal.ofBits .f32 0x7F800000#32 = ⊤
  exact ofBits_pinf
theorem pay4_apply (i : S1x1x16384.Idx) : k0_pay4 (F := Ideal) i = ⊤ := by
  unfold k0_pay4
  show Ideal.ofBits .f32 0x7F800000#32 = ⊤
  exact ofBits_pinf

end Cert.KernelIdeal.Payloads

end
-- ==== Proof.PointValue.lean ====
import proofs.«168027_j59158879535331_2_alg».proof.Proof.IdealBody
import proofs.«168027_j59158879535331_2_alg».proof.Proof.Payloads
import Idealize.ShloMosaic.Lib.Pipeline.Value
import Idealize.ShloMosaic.Lib.Tactic

/-!
# The two blocks after one grid point, as functions of what the point found

The row block after a point is four row steps (one per 1024-wide strip of the point's `y` block) applied to what
the block held (or to `+∞` at the first column tile). The column block after a point is what it held (or `+∞`), with
the four strips of the point's column tile lowered by the strips' column infima.
-/

set_option maxRecDepth 16384

noncomputable section

namespace Cert.KernelIdeal.PointValue

open Cert.KernelIdeal Cert.KernelIdeal.Gen Cert.KernelIdeal.Body Cert.KernelIdeal.Payloads
open Idealize.ShloMosaic Idealize.ShloMosaic.TcCoe Idealize.ShloMosaic.Tactic Idealize.ShloMosaic.ValueIdx Idealize.ShloMosaic.LibInf
open Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-block load after stores the last of which filled the whole block reads that store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

section AnyF
variable {F : FTy → Type} [FloatOps F]

/-- The strip of the point's `y` block that starts at lane `o`. -/
abbrev strip (x1 : Vec F S1x4096 .f32) (o : ℕ) (h : ∀ a, (![0, o] : Fin 2 → ℕ) a + S1x1024.size a ≤ S1x4096.size a) :
    Vec F S1x1024 .f32 := View.ld x1 (Rect.unit (s := S1x4096) ![0, o] S1x1024.size h)

theorem inb0 : ∀ a, (![0, 0] : Fin 2 → ℕ) a + S1x1024.size a ≤ S1x4096.size a := by decide
theorem inb1 : ∀ a, (![0, 1024] : Fin 2 → ℕ) a + S1x1024.size a ≤ S1x4096.size a := by decide
theorem inb2 : ∀ a, (![0, 2048] : Fin 2 → ℕ) a + S1x1024.size a ≤ S1x4096.size a := by decide
theorem inb3 : ∀ a, (![0, 3072] : Fin 2 → ℕ) a + S1x1024.size a ≤ S1x4096.size a := by decide

/-- The row block after a later column tile: four row steps over what it held. -/
theorem rowLater_eq (c : Dev nD) (i : grid0.Coords) (a2 : Memref sig .tc .vmem S1024x1 .f32) (h2 : a2.IsWhole) (a3 : Memref sig .tc .vmem S1x4096 .f32) (h3 : a3.IsWhole) (a4 : Memref sig .tc .vmem S1024x1 .f32) (h4 : a4.IsWhole) (a5 : Memref sig .tc .vmem S1x1x16384 .f32) (h5 : a5.IsWhole) (hc : ¬first i)
    (x0 : Vec F S1024x1 .f32) (x1 : Vec F S1x4096 .f32) (xo2 : Vec F S1024x1 .f32) (xo3 : Vec F S1x1x16384 .f32) :
    rowLater c i a2 h2 a3 h3 a4 h4 a5 h5 hc x0 x1 xo2 xo3
      = k0_pay1 (k0_pay15 (k0_pay5 x0) (strip x1 3072 inb3)) (k0_pay16 (k0_pay13 (k0_pay5 x0) (strip x1 2048 inb2)
          (k0_pay10 (k0_pay5 x0) (strip x1 1024 inb1) (k0_pay7 x0 (strip x1 0 inb0) xo2)))) := by
  unfold rowLater
  rw [View.read_writes_eq_canon _ _ _ (coverLater c i a2 h2 a3 h3 a4 h4 a5 h5 hc x0 x1 xo2 xo3)]
  unfold runLater
  dsimp only
  sl_unfold_words
  rw [View.canon_cons_unit_zero hz2]
  simp only [readCov_cons_unit_zero (S := S1024x1) _ hz2, View.readCov_unit_zero (S := S1024x1) _ hz2, View.readAt_eq_ld, h2.read_unread, h3.read_unread, h4.read_unread,
    View.ld_unit_zero (S := S1024x1) hz2]

/-- The row block after the first column tile: four row steps over `+∞`. -/
theorem rowFirst_eq (c : Dev nD) (i : grid0.Coords) (a2 : Memref sig .tc .vmem S1024x1 .f32) (h2 : a2.IsWhole) (a3 : Memref sig .tc .vmem S1x4096 .f32) (h3 : a3.IsWhole) (a4 : Memref sig .tc .vmem S1024x1 .f32) (h4 : a4.IsWhole) (a5 : Memref sig .tc .vmem S1x1x16384 .f32) (h5 : a5.IsWhole) (hc : first i)
    (x0 : Vec F S1024x1 .f32) (x1 : Vec F S1x4096 .f32) :
    rowFirst c i a2 h2 a3 h3 a4 h4 a5 h5 hc x0 x1
      = k0_pay1 (k0_pay15 (k0_pay5 x0) (strip x1 3072 inb3)) (k0_pay16 (k0_pay13 (k0_pay5 x0) (strip x1 2048 inb2)
          (k0_pay10 (k0_pay5 x0) (strip x1 1024 inb1) (k0_pay7 x0 (strip x1 0 inb0) k0_pay3)))) := by
  unfold rowFirst
  rw [View.read_writes_eq_canon _ _ _ (coverFirst c i a2 h2 a3 h3 a4 h4 a5 h5 hc x0 x1)]
  unfold runFirst
  dsimp only
  sl_unfold_words
  rw [View.canon_cons_unit_zero hz2]
  simp only [readCov_cons_unit_zero (S := S1024x1) _ hz2, View.readCov_unit_zero (S := S1024x1) _ hz2, View.readAt_eq_ld, h2.read_unread, h3.read_unread, h4.read_unread,
    View.ld_unit_zero (S := S1024x1) hz2]

end AnyF

/-! ## At the extended reals -/

/-- Four row steps at row `p`. -/
def rowSteps (x0 : Vec Ideal S1024x1 .f32) (x1 : Vec Ideal S1x4096 .f32) (acc : EReal) (p : Fin 1024) : EReal :=
  min (min (min (min acc (rowInf x0 (strip (F := Ideal) x1 0 inb0) p)) (rowInf x0 (strip (F := Ideal) x1 1024 inb1) p))
    (rowInf x0 (strip (F := Ideal) x1 2048 inb2) p)) (rowInf x0 (strip (F := Ideal) x1 3072 inb3) p)

theorem rowLater_apply (c : Dev nD) (i : grid0.Coords) (a2 : Memref sig .tc .vmem S1024x1 .f32) (h2 : a2.IsWhole) (a3 : Memref sig .tc .vmem S1x4096 .f32) (h3 : a3.IsWhole) (a4 : Memref sig .tc .vmem S1024x1 .f32) (h4 : a4.IsWhole) (a5 : Memref sig .tc .vmem S1x1x16384 .f32) (h5 : a5.IsWhole) (hc : ¬first i)
    (x0 : Vec Ideal S1024x1 .f32) (x1 : Vec Ideal S1x4096 .f32) (xo2 : Vec Ideal S1024x1 .f32) (xo3 : Vec Ideal S1x1x16384 .f32) (p : Fin 1024) :
    rowLater c i a2 h2 a3 h3 a4 h4 a5 h5 hc x0 x1 xo2 xo3 (ix2 p (0 : Fin 1)) = rowSteps x0 x1 (xo2 (ix2 p (0 : Fin 1))) p := by
  rw [rowLater_eq, pay1_apply, pay16_eq, pay13_apply, pay10_apply, pay7_apply, pay5_eq]
  rfl

theorem rowFirst_apply (c : Dev nD) (i : grid0.Coords) (a2 : Memref sig .tc .vmem S1024x1 .f32) (h2 : a2.IsWhole) (a3 : Memref sig .tc .vmem S1x4096 .f32) (h3 : a3.IsWhole) (a4 : Memref sig .tc .vmem S1024x1 .f32) (h4 : a4.IsWhole) (a5 : Memref sig .tc .vmem S1x1x16384 .f32) (h5 : a5.IsWhole) (hc : first i)
    (x0 : Vec Ideal S1024x1 .f32) (x1 : Vec Ideal S1x4096 .f32) (p : Fin 1024) :
    rowFirst c i a2 h2 a3 h3 a4 h4 a5 h5 hc x0 x1 (ix2 p (0 : Fin 1)) = rowSteps x0 x1 ⊤ p := by
  rw [rowFirst_eq, pay1_apply, pay16_eq, pay13_apply, pay10_apply, pay7_apply, pay5_eq, pay3_apply]
  rfl

end Cert.KernelIdeal.PointValue

end
-- ==== Proof.ColValue.lean ====
import proofs.«168027_j59158879535331_2_alg».proof.Proof.PointValue

/-!
# The column block after one grid point

The body overwrites four 1024-wide strips of the 1 × 1 × 16384 column block, at the lanes of the point's column tile;
each strip's new contents are the old ones lowered by the column infima of that strip's matrix. Read at a lane `q`:
inside the column tile the old value meets `min_p |a_p − y_q|`, outside it nothing changes.
-/

set_option maxRecDepth 16384

noncomputable section

namespace Cert.KernelIdeal.ColValue

open Cert.KernelIdeal Cert.KernelIdeal.Gen Cert.KernelIdeal.Body Cert.KernelIdeal.Payloads Cert.KernelIdeal.PointValue
open Idealize.ShloMosaic Idealize.ShloMosaic.TcCoe Idealize.ShloMosaic.Tactic Idealize.ShloMosaic.ValueIdx Idealize.ShloMosaic.LibInf
open Idealize.SL.Sem

/-- `min_p |a_p − b_u|` for a lane `u` of the point's 4096-wide `y` block (`⊤` past it). -/
def colTile (x0 : Vec Ideal S1024x1 .f32) (x1 : Vec Ideal S1x4096 .f32) (u : ℕ) : EReal :=
  if h : u < 4096 then ⨅ p : Fin 1024, FloatOps.absf (F := Ideal) (φ := .f32) (x0 (ix2 p (0 : Fin 1)) - x1 (ix2 (0 : Fin 1) (⟨u, h⟩ : Fin 4096)))
  else ⊤

/-- The column infimum of the strip starting at lane `o`, at its lane `q'`, is the tile's at lane `o + q'`. -/
theorem colInf_strip (x0 : Vec Ideal S1024x1 .f32) (x1 : Vec Ideal S1x4096 .f32) (o : ℕ)
    (h : ∀ a, (![0, o] : Fin 2 → ℕ) a + S1x1024.size a ≤ S1x4096.size a) (ho : o + 1024 ≤ 4096) (q' : Fin 1024) :
    colInf x0 (strip (F := Ideal) x1 o h) q' = colTile x0 x1 (o + q'.val) := by
  unfold colInf colTile gap
  rw [dif_pos (by have := q'.isLt; omega)]
  refine iInf_congr fun p => ?_
  show FloatOps.absf (F := Ideal) (φ := .f32) (x0 (ix2 p (0 : Fin 1)) - x1 ((Rect.unit (s := S1x4096) ![0, o] S1x1024.size h).idx (ix2 (0 : Fin 1) q'))) = _
  refine congrArg (fun y => FloatOps.absf (F := Ideal) (φ := .f32) (x0 (ix2 p (0 : Fin 1)) - x1 y)) (funext fun a => Fin.ext ?_)
  match a with
  | ⟨0, _⟩ => show 0 + 1 * 0 = 0; omega
  | ⟨1, _⟩ => show o + 1 * q'.val = o + q'.val; omega

/-- Four strips written at lanes `o, o + 1024, o + 2048, o + 3072` over contents `f`, each strip's payload the old
    contents lowered by `T` of the lane's offset in the tile: inside the tile the old value meets `T`, outside it stays. -/
theorem read_fourStrips {sig' : RefSig} {κ : Kind} {sp : Space} (v : View sig' κ sp S1x1x16384 .f32) (f : v.ty.Contents (Elt Ideal))
    (o : ℕ) (ho : o + 4096 ≤ 16384) (off0 off1 off2 off3 : Fin 3 → ℕ)
    (i0 : ∀ a, off0 a + S1x1x1024.size a ≤ S1x1x16384.size a) (i1 : ∀ a, off1 a + S1x1x1024.size a ≤ S1x1x16384.size a)
    (i2 : ∀ a, off2 a + S1x1x1024.size a ≤ S1x1x16384.size a) (i3 : ∀ a, off3 a + S1x1x1024.size a ≤ S1x1x16384.size a)
    (e0 : off0 = ![0, 0, o]) (e1 : off1 = ![0, 0, o + 1024]) (e2 : off2 = ![0, 0, o + 2048]) (e3 : off3 = ![0, 0, o + 3072])
    (w0 w1 w2 w3 : S1x1x1024.Idx → EReal) (T : ℕ → EReal)
    (hw0 : ∀ x, w0 x = min (v.read (Elt Ideal) f ((Rect.unit (s := S1x1x16384) off0 S1x1x1024.size i0).emb x)) (T (x 2).val))
    (hw1 : ∀ x, w1 x = min (v.read (Elt Ideal) f ((Rect.unit (s := S1x1x16384) off1 S1x1x1024.size i1).emb x)) (T (1024 + (x 2).val)))
    (hw2 : ∀ x, w2 x = min (v.read (Elt Ideal) f ((Rect.unit (s := S1x1x16384) off2 S1x1x1024.size i2).emb x)) (T (2048 + (x 2).val)))
    (hw3 : ∀ x, w3 x = min (v.read (Elt Ideal) f ((Rect.unit (s := S1x1x16384) off3 S1x1x1024.size i3).emb x)) (T (3072 + (x 2).val)))
    (z : S1x1x16384.Idx) :
    v.read (Elt Ideal) (v.writes (Elt Ideal) f
        [⟨Rect.unit (s := S1x1x16384) off3 S1x1x1024.size i3, w3⟩, ⟨Rect.unit (s := S1x1x16384) off2 S1x1x1024.size i2, w2⟩,
         ⟨Rect.unit (s := S1x1x16384) off1 S1x1x1024.size i1, w1⟩, ⟨Rect.unit (s := S1x1x16384) off0 S1x1x1024.size i0, w0⟩]) z
      = if o ≤ (z 2).val ∧ (z 2).val < o + 4096 then min (v.read (Elt Ideal) f z) (T ((z 2).val - o)) else v.read (Elt Ideal) f z := by
  subst e0 e1 e2 e3
  have hz0 : (z 0).val = 0 := by have : (z 0).val < 1 := (z 0).isLt; omega
  have hz1 : (z 1).val = 0 := by have : (z 1).val < 1 := (z 1).isLt; omega
  have hmem : ∀ (os : ℕ) (ii : ∀ a, (![0, 0, os] : Fin 3 → ℕ) a + S1x1x1024.size a ≤ S1x1x16384.size a),
      z ∈ (Rect.unit (s := S1x1x16384) ![0, 0, os] S1x1x1024.size ii).set ↔ os ≤ (z 2).val ∧ (z 2).val < os + 1024 := by
    intro os ii
    rw [Rect.mem_set_unit]
    constructor
    · intro h; exact h 2
    · intro h a
      match a with
      | ⟨0, _⟩ => show 0 ≤ (z 0).val ∧ (z 0).val < 0 + 1; omega
      | ⟨1, _⟩ => show 0 ≤ (z 1).val ∧ (z 1).val < 0 + 1; omega
      | ⟨2, _⟩ => exact h
  by_cases hq : o ≤ (z 2).val ∧ (z 2).val < o + 4096
  · rw [if_pos hq]
    refine View.read_writes_apply_of_pieces v f (fun z' => min (v.read (Elt Ideal) f z') (T ((z' 2).val - o))) _ ?_ z ?_
    · intro p hp x
      simp only [List.mem_cons, List.mem_nil_iff, or_false] at hp
      rcases hp with rfl | rfl | rfl | rfl
      · refine (hw3 x).trans (congrArg (fun n => min _ (T n)) ?_)
        show 3072 + (x 2).val = (o + 3072 + 1 * (x 2).val) - o
        omega
      · refine (hw2 x).trans (congrArg (fun n => min _ (T n)) ?_)
        show 2048 + (x 2).val = (o + 2048 + 1 * (x 2).val) - o
        omega
      · refine (hw1 x).trans (congrArg (fun n => min _ (T n)) ?_)
        show 1024 + (x 2).val = (o + 1024 + 1 * (x 2).val) - o
        omega
      · refine (hw0 x).trans (congrArg (fun n => min _ (T n)) ?_)
        show (x 2).val = (o + 1 * (x 2).val) - o
        omega
    · by_cases h3 : o + 3072 ≤ (z 2).val
      · exact ⟨_, List.mem_cons_self, (hmem _ i3).mpr ⟨h3, by omega⟩⟩
      · by_cases h2 : o + 2048 ≤ (z 2).val
        · exact ⟨_, List.mem_cons_of_mem _ List.mem_cons_self, (hmem _ i2).mpr ⟨h2, by omega⟩⟩
        · by_cases h1 : o + 1024 ≤ (z 2).val
          · exact ⟨_, List.mem_cons_of_mem _ (List.mem_cons_of_mem _ List.mem_cons_self), (hmem _ i1).mpr ⟨h1, by omega⟩⟩
          · exact ⟨_, List.mem_cons_of_mem _ (List.mem_cons_of_mem _ (List.mem_cons_of_mem _ List.mem_cons_self)),
              (hmem _ i0).mpr ⟨hq.1, by omega⟩⟩
  · rw [if_neg hq]
    refine View.read_writes_apply_of_forall_not_mem v f z _ ?_
    intro p hp
    simp only [List.mem_cons, List.mem_nil_iff, or_false] at hp
    rcases hp with rfl | rfl | rfl | rfl
    · intro h; have := (hmem _ i3).mp h; omega
    · intro h; have := (hmem _ i2).mp h; omega
    · intro h; have := (hmem _ i1).mp h; omega
    · intro h; have := (hmem _ i0).mp h; omega

/-- Membership in a strip, by its lane. -/
theorem mem_strip (off : Fin 3 → ℕ) (os : ℕ) (e : off = ![0, 0, os]) (ii : ∀ a, off a + S1x1x1024.size a ≤ S1x1x16384.size a)
    (z : S1x1x16384.Idx) :
    z ∈ (Rect.unit (s := S1x1x16384) off S1x1x1024.size ii).set ↔ os ≤ (z 2).val ∧ (z 2).val < os + 1024 := by
  subst e
  have hz0 : (z 0).val = 0 := by have : (z 0).val < 1 := (z 0).isLt; omega
  have hz1 : (z 1).val = 0 := by have : (z 1).val < 1 := (z 1).isLt; omega
  rw [Rect.mem_set_unit]
  constructor
  · intro h; exact h 2
  · intro h a
    match a with
    | ⟨0, _⟩ => show 0 ≤ (z 0).val ∧ (z 0).val < 0 + 1; omega
    | ⟨1, _⟩ => show 0 ≤ (z 1).val ∧ (z 1).val < 0 + 1; omega
    | ⟨2, _⟩ => exact h

/-- The lane of a strip's element. -/
theorem emb_strip_val (off : Fin 3 → ℕ) (os : ℕ) (e : off = ![0, 0, os]) (ii : ∀ a, off a + S1x1x1024.size a ≤ S1x1x16384.size a)
    (x : S1x1x1024.Idx) : ((Rect.unit (s := S1x1x16384) off S1x1x1024.size ii).emb x 2).val = os + (x 2).val := by
  subst e
  show os + 1 * (x 2).val = os + (x 2).val
  omega

/-- A store that does not hold an element leaves it. -/
theorem read_cons_skip {Val : EltTy → Type} {sig' : RefSig} {κ : Kind} {sp : Space} {s : Shape} {e : EltTy} (v : View sig' κ sp s e)
    (f : v.ty.Contents Val) (p : View.Piece Val s e) (L : List (View.Piece Val s e)) (y : s.Idx) (h : y ∉ p.1.set) :
    v.read Val (v.writes Val f (p :: L)) y = v.read Val (v.writes Val f L) y := by
  rw [View.writes_cons, View.read_slice_write_of_not_mem p.1 _ _ _ (by rw [Rect.map_emb_univ]; exact h)]

theorem strip_ix (x : S1x1x1024.Idx) : x = ix3 (0 : Fin 1) (0 : Fin 1) (x 2) := by
  funext a
  match a with
  | ⟨0, _⟩ => exact Fin.ext (by have : (x 0).val < 1 := (x 0).isLt; show (x 0).val = 0; omega)
  | ⟨1, _⟩ => exact Fin.ext (by have : (x 1).val < 1 := (x 1).isLt; show (x 1).val = 0; omega)
  | ⟨2, _⟩ => rfl

/-- THE COLUMN BLOCK AFTER A LATER COLUMN TILE, at lane `q`: inside the tile (lanes `o … o + 4095`) what it held meets
    `min_p |a_p − y_q|`; outside, what it held. -/
theorem colLater_apply (c : Dev nD) (i : grid0.Coords) (a2 : Memref sig .tc .vmem S1024x1 .f32) (h2 : a2.IsWhole) (a3 : Memref sig .tc .vmem S1x4096 .f32) (h3 : a3.IsWhole) (a4 : Memref sig .tc .vmem S1024x1 .f32) (h4 : a4.IsWhole) (a5 : Memref sig .tc .vmem S1x1x16384 .f32) (h5 : a5.IsWhole) (hc : ¬first i)
    (x0 : Vec Ideal S1024x1 .f32) (x1 : Vec Ideal S1x4096 .f32) (xo2 : Vec Ideal S1024x1 .f32) (xo3 : Vec Ideal S1x1x16384 .f32)
    (o : ℕ) (ho : o + 4096 ≤ 16384)
    (e0 : k0_off2 i 0#32 = ![0, 0, o]) (e1 : k0_off2 i 1#32 = ![0, 0, o + 1024]) (e2 : k0_off2 i 2#32 = ![0, 0, o + 2048])
    (e3 : k0_off2 i 3#32 = ![0, 0, o + 3072]) (q : Fin 16384) :
    colLater c i a2 h2 a3 h3 a4 h4 a5 h5 hc x0 x1 xo2 xo3 (ix3 (0 : Fin 1) (0 : Fin 1) q)
      = if o ≤ q.val ∧ q.val < o + 4096 then min (xo3 (ix3 (0 : Fin 1) (0 : Fin 1) q)) (colTile x0 x1 (q.val - o))
        else xo3 (ix3 (0 : Fin 1) (0 : Fin 1) q) := by
  unfold colLater runLater
  dsimp only
  sl_unfold_words
  simp only [View.readAt_eq_ld, h2.read_unread, h3.read_unread, h5.read_unread, View.ld_unit_zero (S := S1024x1) hz2]
  refine (read_fourStrips a5.view (h5.unread xo3) o ho (k0_off2 i 0#32) (k0_off2 i 1#32) (k0_off2 i 2#32) (k0_off2 i 3#32)
    (k0_off2_inb i 0) (k0_off2_inb i 1) (k0_off2_inb i 2) (k0_off2_inb i 3) e0 e1 e2 e3 _ _ _ _ (colTile x0 x1) ?_ ?_ ?_ ?_ _).trans ?_
  · intro x
    rw [strip_ix x]
    refine (pay8_apply x0 _ _ (x 2)).trans ?_
    rw [h5.read_unread]
    exact congrArg₂ min rfl ((colInf_strip x0 x1 0 inb0 (by norm_num) (x 2)).trans (by rw [Nat.zero_add]))
  · intro x
    rw [strip_ix x]
    refine (pay11_apply (k0_pay5 x0) _ _ (x 2)).trans ?_
    rw [h5.read_unread, pay5_eq]
    exact congrArg₂ min rfl (colInf_strip x0 x1 1024 inb1 (by norm_num) (x 2))
  · intro x
    rw [strip_ix x]
    refine (pay14_apply (k0_pay5 x0) _ _ (x 2)).trans ?_
    rw [h5.read_unread, pay5_eq]
    exact congrArg₂ min rfl (colInf_strip x0 x1 2048 inb2 (by norm_num) (x 2))
  · intro x
    rw [strip_ix x]
    refine (pay2_apply (k0_pay5 x0) _ _ (x 2)).trans ?_
    rw [h5.read_unread, pay5_eq]
    exact congrArg₂ min rfl (colInf_strip x0 x1 3072 inb3 (by norm_num) (x 2))
  · rw [h5.read_unread]

/-- Strips at lanes at least 1024 apart share no element. -/
theorem strips_apart (offA offB : Fin 3 → ℕ) (oA oB : ℕ) (eA : offA = ![0, 0, oA]) (eB : offB = ![0, 0, oB])
    (iA : ∀ a, offA a + S1x1x1024.size a ≤ S1x1x16384.size a) (iB : ∀ a, offB a + S1x1x1024.size a ≤ S1x1x16384.size a)
    (hAB : oA + 1024 ≤ oB ∨ oB + 1024 ≤ oA) (x : S1x1x1024.Idx) :
    (Rect.unit (s := S1x1x16384) offB S1x1x1024.size iB).emb x ∉ (Rect.unit (s := S1x1x16384) offA S1x1x1024.size iA).set := by
  intro hm
  have h1 := (mem_strip _ _ eA iA _).mp hm
  have h2 := emb_strip_val _ _ eB iB x
  have : (x 2).val < 1024 := (x 2).isLt
  omega

set_option maxHeartbeats 2000000 in
set_option maxRecDepth 200000 in
/-- THE COLUMN BLOCK AFTER THE FIRST COLUMN TILE, at lane `q`: inside the tile `min_p |a_p − y_q|`, outside `+∞`. -/
theorem colFirst_apply (c : Dev nD) (i : grid0.Coords) (a2 : Memref sig .tc .vmem S1024x1 .f32) (h2 : a2.IsWhole) (a3 : Memref sig .tc .vmem S1x4096 .f32) (h3 : a3.IsWhole) (a4 : Memref sig .tc .vmem S1024x1 .f32) (h4 : a4.IsWhole) (a5 : Memref sig .tc .vmem S1x1x16384 .f32) (h5 : a5.IsWhole) (hc : first i)
    (x0 : Vec Ideal S1024x1 .f32) (x1 : Vec Ideal S1x4096 .f32)
    (o : ℕ) (ho : o + 4096 ≤ 16384)
    (e0 : k0_off2 i 0#32 = ![0, 0, o]) (e1 : k0_off2 i 1#32 = ![0, 0, o + 1024]) (e2 : k0_off2 i 2#32 = ![0, 0, o + 2048])
    (e3 : k0_off2 i 3#32 = ![0, 0, o + 3072]) (q : Fin 16384) :
    colFirst c i a2 h2 a3 h3 a4 h4 a5 h5 hc x0 x1 (ix3 (0 : Fin 1) (0 : Fin 1) q)
      = if o ≤ q.val ∧ q.val < o + 4096 then colTile x0 x1 (q.val - o) else ⊤ := by
  unfold colFirst runFirst
  dsimp only
  sl_unfold_words
  simp only [View.readAt_eq_ld, h2.read_unread, h3.read_unread, View.ld_unit_zero (S := S1024x1) hz2]
  have hfill : ∀ z, a5.view.read (Elt Ideal) (a5.view.writes (Elt Ideal) a5.view.junk
      [⟨Rect.unit (s := S1x1x16384) ![0, 0, 0] S1x1x16384.size inb_S1x1x16384_S1x1x16384_0_0_0, k0_pay4 (F := Ideal)⟩]) z = ⊤ := by
    intro z
    rw [View.read_writes_eq_canon _ _ _ (fun y => ⟨_, List.mem_singleton_self _, View.mem_set_unit_zero hz3 inb_S1x1x16384_S1x1x16384_0_0_0 y⟩), View.canon_unit_zero hz3]
    exact pay4_apply z
  refine (read_fourStrips a5.view (a5.view.writes (Elt Ideal) a5.view.junk
      [⟨Rect.unit (s := S1x1x16384) ![0, 0, 0] S1x1x16384.size inb_S1x1x16384_S1x1x16384_0_0_0, k0_pay4 (F := Ideal)⟩])
    o ho (k0_off2 i 0#32) (k0_off2 i 1#32) (k0_off2 i 2#32) (k0_off2 i 3#32)
    (k0_off2_inb i 0) (k0_off2_inb i 1) (k0_off2_inb i 2) (k0_off2_inb i 3) e0 e1 e2 e3 _ _ _ _ (colTile x0 x1) ?_ ?_ ?_ ?_ _).trans ?_
  · intro x
    rw [strip_ix x]
    refine (pay8_apply x0 _ _ (x 2)).trans ?_
    exact congrArg₂ min rfl ((colInf_strip x0 x1 0 inb0 (by norm_num) (x 2)).trans (by rw [Nat.zero_add]))
  · intro x
    rw [strip_ix x]
    refine (pay11_apply (k0_pay5 x0) _ _ (x 2)).trans ?_
    rw [pay5_eq]
    refine congrArg₂ min ?_ (colInf_strip x0 x1 1024 inb1 (by norm_num) (x 2))
    exact read_cons_skip a5.view _ _ _ _ (strips_apart _ _ _ _ e0 e1 (k0_off2_inb i 0) (k0_off2_inb i 1) (by omega) _)
  · intro x
    rw [strip_ix x]
    refine (pay14_apply (k0_pay5 x0) _ _ (x 2)).trans ?_
    rw [pay5_eq]
    refine congrArg₂ min ?_ (colInf_strip x0 x1 2048 inb2 (by norm_num) (x 2))
    refine (read_cons_skip a5.view _ _ _ _ ?_).trans ?_
    · exact strips_apart _ _ _ _ e1 e2 (k0_off2_inb i 1) (k0_off2_inb i 2) (by omega) _
    refine read_cons_skip a5.view _ _ _ _ ?_
    exact strips_apart _ _ _ _ e0 e2 (k0_off2_inb i 0) (k0_off2_inb i 2) (by omega) _
  · intro x
    rw [strip_ix x]
    refine (pay2_apply (k0_pay5 x0) _ _ (x 2)).trans ?_
    rw [pay5_eq]
    refine congrArg₂ min ?_ (colInf_strip x0 x1 3072 inb3 (by norm_num) (x 2))
    refine (read_cons_skip a5.view _ _ _ _ ?_).trans ?_
    · exact strips_apart _ _ _ _ e2 e3 (k0_off2_inb i 2) (k0_off2_inb i 3) (by omega) _
    refine (read_cons_skip a5.view _ _ _ _ ?_).trans ?_
    · exact strips_apart _ _ _ _ e1 e3 (k0_off2_inb i 1) (k0_off2_inb i 3) (by omega) _
    refine read_cons_skip a5.view _ _ _ _ ?_
    exact strips_apart _ _ _ _ e0 e3 (k0_off2_inb i 0) (k0_off2_inb i 3) (by omega) _
  · rw [hfill]
    refine if_congr Iff.rfl ?_ rfl
    exact min_eq_right le_top

end Cert.KernelIdeal.ColValue

end
-- ==== Proof.Fold.lean ====
import proofs.«168027_j59158879535331_2_alg».proof.Proof.ColValue

/-!
# The two blocks after every grid point

Point `n = 4·I + j` works on rows `1024·I … 1024·I + 1023` of `x` and columns `4096·j … 4096·j + 4095` of `y`. By
induction on the point: after it the row block holds, at row `p`, the minimum of `|x_r − y_q|` (`r = 1024·I + p`) over
the columns `q < 4096·(j + 1)` seen so far in this row tile; and the column block holds, at a column `q < 4096·(j + 1)`,
the minimum over the row tile's 1024 rows, and `+∞` at the columns not yet seen.
-/

set_option maxRecDepth 16384

noncomputable section

namespace Cert.KernelIdeal.Fold

open Cert.KernelIdeal Cert.KernelIdeal.Gen Cert.KernelIdeal.Body Cert.KernelIdeal.Payloads Cert.KernelIdeal.PointValue Cert.KernelIdeal.ColValue
open Idealize.ShloMosaic Idealize.ShloMosaic.TcCoe Idealize.ShloMosaic.ValueIdx Idealize.ShloMosaic.LibInf
open Idealize.SL.Sem

variable (m : (ℓ : Loc nD τ sig) → Buf (Elt Ideal) ℓ) (c : Dev nD)

/-- `x` as the launch finds it: a 16384 × 1 array. -/
abbrev X : S16384x1.Idx → EReal := V m c main_v0
/-- `y` as the launch finds it: a 1 × 16384 array. -/
abbrev Y : S1x16384.Idx → EReal := V m c main_v1

/-- `|x_r − y_q|`. -/
def D (r q : Fin 16384) : EReal :=
  FloatOps.absf (F := Ideal) (φ := .f32) (X m c (ix2 r (0 : Fin 1)) - Y m c (ix2 (0 : Fin 1) q))

/-- Row `p` of row tile `I`. -/
def rowIx (I : ℕ) (p : Fin 1024) : Fin 16384 := ⟨(1024 * I + p.val) % 16384, Nat.mod_lt _ (by norm_num)⟩
/-- Column `u` of column tile `j`. -/
def colIx (j : ℕ) (u : Fin 4096) : Fin 16384 := ⟨(4096 * j + u.val) % 16384, Nat.mod_lt _ (by norm_num)⟩

/-! ## The schedule's arithmetic, decided over the 64 points -/

theorem idx0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem idx1 : ∀ t : Fin cfg0.N, win0_1.index t (0 : Fin 2) = 0 ∧ win0_1.index t (1 : Fin 2) = t.val % 4 :=
  (by decide +kernel : ∀ t : Fin grid0.N, win0_1.index t (0 : Fin 2) = 0 ∧ win0_1.index t (1 : Fin 2) = t.val % 4)
theorem off2 : ∀ t : Fin cfg0.N, k0_off2 (grid0.coords t) 0#32 = ![0, 0, 4096 * (t.val % 4)]
    ∧ k0_off2 (grid0.coords t) 1#32 = ![0, 0, 4096 * (t.val % 4) + 1024]
    ∧ k0_off2 (grid0.coords t) 2#32 = ![0, 0, 4096 * (t.val % 4) + 2048]
    ∧ k0_off2 (grid0.coords t) 3#32 = ![0, 0, 4096 * (t.val % 4) + 3072] :=
  (by decide +kernel : ∀ t : Fin grid0.N, k0_off2 (grid0.coords t) 0#32 = ![0, 0, 4096 * (t.val % 4)]
    ∧ k0_off2 (grid0.coords t) 1#32 = ![0, 0, 4096 * (t.val % 4) + 1024]
    ∧ k0_off2 (grid0.coords t) 2#32 = ![0, 0, 4096 * (t.val % 4) + 2048]
    ∧ k0_off2 (grid0.coords t) 3#32 = ![0, 0, 4096 * (t.val % 4) + 3072])

/-! ## The input blocks of a point -/

/-- The `x` block of point `t` at `p` is `x` at row `1024·(t / 4) + p`. -/
theorem blk0 (t : Fin cfg0.N) (p : Fin 1024) :
    (iblk m c 0 t : Vec Ideal S1024x1 .f32) (ix2 p (0 : Fin 1)) = X m c (ix2 (rowIx (t.val / 4) p) (0 : Fin 1)) := by
  have hN : t.val < 64 := lt_of_lt_of_eq t.isLt (show cfg0.N = 64 from N_0)
  unfold iblk
  rw [View.read_apply]
  show V m c main_v0 _ = V m c main_v0 _
  refine congrArg (V m c main_v0) (funext fun a => Fin.ext ?_)
  match a with
  | ⟨0, _⟩ =>
    show win0_0.index t (0 : Fin 2) * 1024 + 1 * p.val = (1024 * (t.val / 4) + p.val) % 16384
    rw [(idx0 t).1]; have := p.isLt; omega
  | ⟨1, _⟩ =>
    show win0_0.index t (1 : Fin 2) * 1 + 1 * 0 = 0
    rw [(idx0 t).2]

/-- The `y` block of point `t` at `u` is `y` at column `4096·(t % 4) + u`. -/
theorem blk1 (t : Fin cfg0.N) (u : Fin 4096) :
    (iblk m c 1 t : Vec Ideal S1x4096 .f32) (ix2 (0 : Fin 1) u) = Y m c (ix2 (0 : Fin 1) (colIx (t.val % 4) u)) := by
  have hN : t.val < 64 := lt_of_lt_of_eq t.isLt (show cfg0.N = 64 from N_0)
  unfold iblk
  rw [View.read_apply]
  show V m c main_v1 _ = V m c main_v1 _
  refine congrArg (V m c main_v1) (funext fun a => Fin.ext ?_)
  match a with
  | ⟨0, _⟩ =>
    show win0_1.index t (0 : Fin 2) * 1 + 1 * 0 = 0
    rw [(idx1 t).1]
  | ⟨1, _⟩ =>
    show win0_1.index t (1 : Fin 2) * 4096 + 1 * u.val = (4096 * (t.val % 4) + u.val) % 16384
    rw [(idx1 t).2]; have := u.isLt; omega

/-! ## One point's steps, as steps of the running infima -/

/-- A strip of the `y` block at its lane `q'` is the block at lane `o + q'`. -/
theorem strip_apply (x1 : Vec Ideal S1x4096 .f32) (o : ℕ) (h : ∀ a, (![0, o] : Fin 2 → ℕ) a + S1x1024.size a ≤ S1x4096.size a)
    (ho : o + 1024 ≤ 4096) (q' : Fin 1024) :
    strip (F := Ideal) x1 o h (ix2 (0 : Fin 1) q') = x1 (ix2 (0 : Fin 1) (⟨o + q'.val, by have := q'.isLt; omega⟩ : Fin 4096)) := by
  show x1 ((Rect.unit (s := S1x4096) ![0, o] S1x1024.size h).idx (ix2 (0 : Fin 1) q')) = _
  refine congrArg x1 (funext fun a => Fin.ext ?_)
  match a with
  | ⟨0, _⟩ => show 0 + 1 * 0 = 0; omega
  | ⟨1, _⟩ => show o + 1 * q'.val = o + q'.val; omega

/-- The four row steps of a point whose matrix entries are `f` at the columns `b … b + 4095` take the infimum below `b`
    to the infimum below `b + 4096`. -/
theorem rowSteps_fold (x0 : Vec Ideal S1024x1 .f32) (x1 : Vec Ideal S1x4096 .f32) (f : Fin 16384 → EReal) (b : ℕ)
    (hb : b + 4096 ≤ 16384) (p : Fin 1024)
    (h : ∀ u : Fin 4096, FloatOps.absf (F := Ideal) (φ := .f32) (x0 (ix2 p (0 : Fin 1)) - x1 (ix2 (0 : Fin 1) u))
      = f ⟨b + u.val, by have := u.isLt; omega⟩) :
    rowSteps x0 x1 (infBelow f b) p = infBelow f (b + 4096) := by
  have r0 : rowInf x0 (strip (F := Ideal) x1 0 inb0) p
      = ⨅ j : Fin 1024, f ⟨b + j.val, lt_of_lt_of_le (Nat.add_lt_add_left j.isLt _) (by omega)⟩ :=
    iInf_congr fun j => by
      unfold gap
      rw [strip_apply x1 0 inb0 (by norm_num) j]
      exact (h _).trans (congrArg f (Fin.ext (by show b + (0 + j.val) = b + j.val; omega)))
  have r1 : rowInf x0 (strip (F := Ideal) x1 1024 inb1) p
      = ⨅ j : Fin 1024, f ⟨b + 1024 + j.val, lt_of_lt_of_le (Nat.add_lt_add_left j.isLt _) (by omega)⟩ :=
    iInf_congr fun j => by
      unfold gap
      rw [strip_apply x1 1024 inb1 (by norm_num) j]
      exact (h _).trans (congrArg f (Fin.ext (by show b + (1024 + j.val) = b + 1024 + j.val; omega)))
  have r2 : rowInf x0 (strip (F := Ideal) x1 2048 inb2) p
      = ⨅ j : Fin 1024, f ⟨b + 1024 + 1024 + j.val, lt_of_lt_of_le (Nat.add_lt_add_left j.isLt _) (by omega)⟩ :=
    iInf_congr fun j => by
      unfold gap
      rw [strip_apply x1 2048 inb2 (by norm_num) j]
      exact (h _).trans (congrArg f (Fin.ext (by show b + (2048 + j.val) = b + 1024 + 1024 + j.val; omega)))
  have r3 : rowInf x0 (strip (F := Ideal) x1 3072 inb3) p
      = ⨅ j : Fin 1024, f ⟨b + 1024 + 1024 + 1024 + j.val, lt_of_lt_of_le (Nat.add_lt_add_left j.isLt _) (by omega)⟩ :=
    iInf_congr fun j => by
      unfold gap
      rw [strip_apply x1 3072 inb3 (by norm_num) j]
      exact (h _).trans (congrArg f (Fin.ext (by show b + (3072 + j.val) = b + 1024 + 1024 + 1024 + j.val; omega)))
  unfold rowSteps
  rw [r0, r1, r2, r3, infBelow_step f b 1024 (by omega), infBelow_step f (b + 1024) 1024 (by omega),
    infBelow_step f (b + 1024 + 1024) 1024 (by omega), infBelow_step f (b + 1024 + 1024 + 1024) 1024 (by omega)]

/-! ## The invariant -/

/-- What the two blocks hold after point `n`. -/
def Inv (n : ℕ) (hn : n < cfg0.N) : Prop :=
  (∀ p : Fin 1024, (blocksAt m c n hn).1 (ix2 p (0 : Fin 1))
      = infBelow (fun q => D m c (rowIx (n / 4) p) q) (4096 * (n % 4 + 1)))
  ∧ (∀ q : Fin 16384, (blocksAt m c n hn).2 (ix3 (0 : Fin 1) (0 : Fin 1) q)
      = if q.val < 4096 * (n % 4 + 1) then ⨅ p : Fin 1024, D m c (rowIx (n / 4) p) q else ⊤)

/-- The matrix entry a point's body forms is `|x_r − y_q|` at the point's rows and columns. -/
theorem entry (t : Fin cfg0.N) (p : Fin 1024) (u : Fin 4096) (x0 : Vec Ideal S1024x1 .f32) (x1 : Vec Ideal S1x4096 .f32)
    (h0 : x0 = iblk m c 0 t) (h1 : x1 = iblk m c 1 t) :
    FloatOps.absf (F := Ideal) (φ := .f32) (x0 (ix2 p (0 : Fin 1)) - x1 (ix2 (0 : Fin 1) u))
      = D m c (rowIx (t.val / 4) p) (colIx (t.val % 4) u) := by
  subst h0 h1
  rw [blk0, blk1]; rfl

/-- The column tile's infimum at lane `w` is the column's infimum over the row tile. -/
theorem colTile_eq (t : Fin cfg0.N) (w : ℕ) (hw : w < 4096) :
    colTile (iblk m c 0 t : Vec Ideal S1024x1 .f32) (iblk m c 1 t : Vec Ideal S1x4096 .f32) w
      = ⨅ p : Fin 1024, D m c (rowIx (t.val / 4) p) (colIx (t.val % 4) ⟨w, hw⟩) := by
  unfold colTile
  rw [dif_pos hw]
  exact iInf_congr fun p => entry m c t p ⟨w, hw⟩ _ _ rfl rfl

theorem inv_all : ∀ (n : ℕ) (hn : n < cfg0.N), Inv m c n hn := by
  intro n
  induction n with
  | zero =>
    intro hn
    have hN : (0 : ℕ) < 64 := by norm_num
    obtain ⟨e0, e1, e2, e3⟩ := off2 ⟨0, hn⟩
    refine ⟨fun p => ?_, fun q => ?_⟩
    · rw [blocksAt_first m c ⟨0, hn⟩ rfl]
      dsimp only
      rw [rowFirst_apply, ← infBelow_zero (fun q => D m c (rowIx (0 / 4) p) q)]
      refine (rowSteps_fold _ _ _ 0 (by norm_num) p fun u => ?_).trans rfl
      refine (entry m c ⟨0, hn⟩ p u _ _ rfl rfl).trans (congrArg (D m c _) (Fin.ext ?_))
      show (4096 * (0 % 4) + u.val) % 16384 = 0 + u.val
      have := u.isLt; omega
    · rw [blocksAt_first m c ⟨0, hn⟩ rfl]
      dsimp only
      rw [colFirst_apply _ _ _ _ _ _ _ _ _ _ _ _ _ (4096 * (0 % 4)) (by norm_num) e0 e1 e2 e3 q]
      by_cases hq : q.val < 4096
      · rw [if_pos (by constructor <;> omega), if_pos (by omega), colTile_eq m c ⟨0, hn⟩ _ (by show q.val - 4096 * (0 % 4) < 4096; omega)]
        refine iInf_congr fun p => congrArg (D m c _) (Fin.ext ?_)
        show (4096 * (0 % 4) + (q.val - 4096 * (0 % 4))) % 16384 = q.val
        omega
      · rw [if_neg (by omega), if_neg (by omega)]
  | succ n ih =>
    intro hn
    have hN : n + 1 < 64 := lt_of_lt_of_eq hn (show cfg0.N = 64 from N_0)
    obtain ⟨e0, e1, e2, e3⟩ := off2 ⟨n + 1, hn⟩
    by_cases h0 : (n + 1) % 4 = 0
    · refine ⟨fun p => ?_, fun q => ?_⟩
      · rw [blocksAt_first m c ⟨n + 1, hn⟩ h0]
        dsimp only
        rw [rowFirst_apply, ← infBelow_zero (fun q => D m c (rowIx ((n + 1) / 4) p) q)]
        refine (rowSteps_fold _ _ _ 0 (by norm_num) p fun u => ?_).trans (congrArg _ (by omega))
        refine (entry m c ⟨n + 1, hn⟩ p u _ _ rfl rfl).trans (congrArg (D m c _) (Fin.ext ?_))
        show (4096 * ((n + 1) % 4) + u.val) % 16384 = 0 + u.val
        have := u.isLt; omega
      · rw [blocksAt_first m c ⟨n + 1, hn⟩ h0]
        dsimp only
        rw [colFirst_apply _ _ _ _ _ _ _ _ _ _ _ _ _ (4096 * ((n + 1) % 4)) (by omega) e0 e1 e2 e3 q]
        by_cases hq : q.val < 4096
        · rw [if_pos (by constructor <;> omega), if_pos (by omega),
            colTile_eq m c ⟨n + 1, hn⟩ _ (by show q.val - 4096 * ((n + 1) % 4) < 4096; omega)]
          refine iInf_congr fun p => congrArg (D m c _) (Fin.ext ?_)
          show (4096 * ((n + 1) % 4) + (q.val - 4096 * ((n + 1) % 4))) % 16384 = q.val
          omega
        · rw [if_neg (by omega), if_neg (by omega)]
    · obtain ⟨ihr, ihc⟩ := ih (Nat.lt_of_succ_lt hn)
      have hI : n / 4 = (n + 1) / 4 := by omega
      have hj : n % 4 + 1 = (n + 1) % 4 := by omega
      refine ⟨fun p => ?_, fun q => ?_⟩
      · rw [blocksAt_later m c ⟨n + 1, hn⟩ h0]
        dsimp only
        rw [rowLater_apply]
        show rowSteps _ _ ((blocksAt m c n _).1 (ix2 p (0 : Fin 1))) p = _
        rw [ihr p, hI, hj]
        refine (rowSteps_fold _ _ _ (4096 * ((n + 1) % 4)) (by omega) p fun u => ?_).trans (congrArg _ (by omega))
        refine (entry m c ⟨n + 1, hn⟩ p u _ _ rfl rfl).trans (congrArg (D m c _) (Fin.ext ?_))
        show (4096 * ((n + 1) % 4) + u.val) % 16384 = 4096 * ((n + 1) % 4) + u.val
        have := u.isLt; omega
      · rw [blocksAt_later m c ⟨n + 1, hn⟩ h0]
        dsimp only
        rw [colLater_apply _ _ _ _ _ _ _ _ _ _ _ _ _ _ _ (4096 * ((n + 1) % 4)) (by omega) e0 e1 e2 e3 q]
        show (if _ then min ((blocksAt m c n _).2 (ix3 (0 : Fin 1) (0 : Fin 1) q)) _ else (blocksAt m c n _).2 (ix3 (0 : Fin 1) (0 : Fin 1) q)) = _
        rw [ihc q, hI, hj]
        by_cases hq1 : q.val < 4096 * ((n + 1) % 4)
        · rw [if_neg (by omega), if_pos hq1, if_pos (by omega)]
        · by_cases hq2 : q.val < 4096 * ((n + 1) % 4 + 1)
          · rw [if_pos (by constructor <;> omega), if_neg hq1, if_pos hq2, min_eq_right le_top,
              colTile_eq m c ⟨n + 1, hn⟩ _ (by show q.val - 4096 * ((n + 1) % 4) < 4096; omega)]
            refine iInf_congr fun p => congrArg (D m c _) (Fin.ext ?_)
            show (4096 * ((n + 1) % 4) + (q.val - 4096 * ((n + 1) % 4))) % 16384 = q.val
            omega
          · rw [if_neg (by omega), if_neg hq1, if_neg hq2]

end Cert.KernelIdeal.Fold

end
-- ==== Proof.Spec.lean ====
import proofs.«168027_j59158879535331_2_alg».proof.Proof.LibInf
import Idealize.ShloMosaic.Lib.ValueIdx

/-!
# The chamfer distance of two vectors, as one function of the two argument arrays

For `x, y ∈ ℝ̄¹⁶³⁸⁴`: `d(r, q) = |x_r − y_q|`; the row minima `min_q d(r, q)`, the column minima `min_r d(r, q)`; and the
result `½ · (Σ_r min_q d) / 16384 + ½ · (Σ_q min_r d) / 16384`, with the constants and the order of the scalar
operations that both programs print.
-/

noncomputable section

namespace Cert.Chamfer

open Idealize.ShloMosaic Idealize.ShloMosaic.ValueIdx

/-- The scalar shape. -/
abbrev S0 : Shape := ⟨0, ![]⟩
/-- The vectors' shape. -/
abbrev SV : Shape := ⟨1, ![16384]⟩

/-- `|x_r − y_q|` on the extended reals. -/
def dist (x y : FVec Ideal SV .f32) (r q : Fin 16384) : EReal :=
  FloatOps.absf (F := Ideal) (φ := .f32) (x (ix1 r) - y (ix1 q))

/-- `min_q |x_r − y_q|`. -/
def rowMin (x y : FVec Ideal SV .f32) (r : Fin 16384) : EReal := ⨅ q : Fin 16384, dist x y r q

/-- `min_r |x_r − y_q|`. -/
def colMin (x y : FVec Ideal SV .f32) (q : Fin 16384) : EReal := ⨅ r : Fin 16384, dist x y r q

/-- The scalar operations that end both programs: `½ · a / 16384 + ½ · b / 16384`. -/
def mix (a b : FVec Ideal S0 .f32) : FVec Ideal S0 .f32 :=
  addf (Host.divf (mulf (constant (F := Ideal) S0 .f32 0x3F000000#32) a) (constant (F := Ideal) S0 .f32 0x46800000#32))
    (Host.divf (mulf (constant (F := Ideal) S0 .f32 0x3F000000#32) b) (constant (F := Ideal) S0 .f32 0x46800000#32))

/-- The sum of the row minima, from the zero word, as a scalar array. -/
def rowSum (x y : FVec Ideal SV .f32) : FVec Ideal S0 .f32 :=
  fun _ => Ideal.ofBits .f32 0x00000000#32 + ∑ r : Fin 16384, rowMin x y r

/-- The sum of the column minima, from the zero word, as a scalar array. -/
def colSum (x y : FVec Ideal SV .f32) : FVec Ideal S0 .f32 :=
  fun _ => Ideal.ofBits .f32 0x00000000#32 + ∑ q : Fin 16384, colMin x y q

/-- The chamfer distance. -/
def chamfer (x y : FVec Ideal SV .f32) : FVec Ideal S0 .f32 := mix (rowSum x y) (colSum x y)

end Cert.Chamfer

end
-- ==== Proof.Arrays.lean ====
import proofs.«168027_j59158879535331_2_alg».proof.Proof.Fold
import proofs.«168027_j59158879535331_2_alg».proof.Proof.Spec
import Idealize.ShloMosaic.Lib.Pipeline.Value
import Idealize.ShloMosaic.Lib.StableHlo.Run

/-!
# The two result arrays of the launch, and the program's result

The row block is written back after the last column tile of each row tile, when it holds the row minima over all
16384 columns; the column block likewise, when it holds, for every column, the minimum over the row tile's rows. So
the first result array is `r ↦ min_q |x_r − y_q|` and the second `(I, q) ↦ min_{r in row tile I} |x_r − y_q|`. The host
operations after the launch sum the first, take the minimum of the second over the 16 row tiles (the column minima)
and sum that, and mix the two sums.
-/

set_option maxRecDepth 16384

noncomputable section

namespace Cert.KernelIdeal.Arrays

open Cert.KernelIdeal Cert.KernelIdeal.Gen Cert.KernelIdeal.Body Cert.KernelIdeal.Fold
open Idealize.ShloMosaic Idealize.ShloMosaic.TcCoe Idealize.ShloMosaic.ValueIdx Idealize.ShloMosaic.LibInf
open Idealize.SL.Sem
open Idealize.ShloMosaic.Pipeline (Dat)

variable (m : (ℓ : Loc nD τ sig) → Buf (Elt Ideal) ℓ) (ρ : Dev nD → PrngReg) (c : Dev nD)

/-- The first result array: the row minima. -/
def Rows : S16384x1.Idx → EReal := fun i => ⨅ q : Fin 16384, D m c ⟨(i 0).val, (i 0).isLt⟩ q
/-- The second: per row tile, the column minima over the tile's rows. -/
def Cols : S16x1x16384.Idx → EReal := fun i => ⨅ p : Fin 1024, D m c (rowIx (i 0).val p) ⟨(i 2).val, (i 2).isLt⟩

theorem idx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

/-! ## The row array -/

/-- After the last column tile of a row tile, the row block is that tile's block of the row minima. -/
theorem rowblk_eq (t : Fin cfg0.N) (hf : t.val % 4 = 3) (y : S1024x1.Idx) :
    (blocksAt m c t.val t.isLt).1 y = Rows m c (((cfg0.win 2).blk t).view.emb y) := by
  have hN : t.val < 64 := lt_of_lt_of_eq t.isLt (show cfg0.N = 64 from N_0)
  obtain ⟨p, rfl⟩ : ∃ p : Fin 1024, y = ix2 p (0 : Fin 1) := ⟨y 0, by
    funext a
    match a with
    | ⟨0, _⟩ => rfl
    | ⟨1, _⟩ => exact Fin.ext (by have : (y 1).val < 1 := (y 1).isLt; show (y 1).val = 0; omega)⟩
  rw [(inv_all m c t.val t.isLt).1 p, infBelow_all _ _ (by omega)]
  unfold Rows
  refine iInf_congr fun q => congrArg (fun r => D m c r q) (Fin.ext ?_)
  show (1024 * (t.val / 4) + p.val) % 16384 = win0_2.index t (0 : Fin 2) * 1024 + 1 * p.val
  rw [(idx2 t).1]; have := p.isLt; omega

theorem flushed2_eq (t : Fin cfg0.N) (hf : (cfg0.win 2).flush t = true) :
    (dats m 0 c).flushed 2 t = ((cfg0.win 2).blk t).view.read (Elt Ideal) (Rows m c) := by
  have h3 : t.val % 4 = 3 := (flush0_2 t).mp hf
  show (cfg0.win 2).cut (grid0.coords t) ((dats m 0 c).after 2 t) = _
  rw [after2]
  funext j
  rw [View.read_apply]
  exact rowblk_eq m c t h3 j

theorem mem_blk2 (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v2_0).slice (win0_2.rect t)).set ↔ _
  rw [View.set_slice_whole, Rect.mem_set_unit]
  exact Iff.rfl

theorem cover2 (i : S16384x1.Idx) : ∃ t : Fin cfg0.N, (cfg0.win 2).flush t = true ∧ i ∈ ((cfg0.win 2).blk t).view.set := by
  have hi : (i 0).val < 16384 := (i 0).isLt
  have hi1 : (i 1).val < 1 := (i 1).isLt
  have hlt : 4 * ((i 0).val / 1024) + 3 < cfg0.N := by rw [show cfg0.N = 64 from N_0]; omega
  refine ⟨⟨4 * ((i 0).val / 1024) + 3, hlt⟩, (flush0_2 _).mpr (by show (4 * ((i 0).val / 1024) + 3) % 4 = 3; omega), ?_⟩
  rw [mem_blk2]
  obtain ⟨e0, e1⟩ := idx2 ⟨4 * ((i 0).val / 1024) + 3, hlt⟩
  intro a
  match a with
  | ⟨0, _⟩ =>
    show win0_2.index ⟨4 * ((i 0).val / 1024) + 3, hlt⟩ (0 : Fin 2) * 1024 ≤ (i 0).val ∧ (i 0).val < win0_2.index ⟨4 * ((i 0).val / 1024) + 3, hlt⟩ (0 : Fin 2) * 1024 + 1024
    rw [e0]; show (4 * ((i 0).val / 1024) + 3) / 4 * 1024 ≤ (i 0).val ∧ (i 0).val < (4 * ((i 0).val / 1024) + 3) / 4 * 1024 + 1024
    omega
  | ⟨1, _⟩ =>
    show win0_2.index ⟨4 * ((i 0).val / 1024) + 3, hlt⟩ (1 : Fin 2) * 1 ≤ (i 1).val ∧ (i 1).val < win0_2.index ⟨4 * ((i 0).val / 1024) + 3, hlt⟩ (1 : Fin 2) * 1 + 1
    rw [e1]; omega

/-- The first result array ends at the row minima. -/
theorem final2 : (dats m 0 c).arrAt 2 cfg0.N = Rows m c :=
  (dats m 0 c).arrAt_eq_of_cover 2 (Rows m c) (flushed2_eq m c) cover2

/-! ## The column array -/

theorem colblk_eq (t : Fin cfg0.N) (hf : t.val % 4 = 3) (y : S1x1x16384.Idx) :
    (blocksAt m c t.val t.isLt).2 y = Cols m c (((cfg0.win 3).blk t).view.emb y) := by
  have hN : t.val < 64 := lt_of_lt_of_eq t.isLt (show cfg0.N = 64 from N_0)
  obtain ⟨q, rfl⟩ : ∃ q : Fin 16384, y = ix3 (0 : Fin 1) (0 : Fin 1) q := ⟨y 2, by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl⟩
  rw [(inv_all m c t.val t.isLt).2 q, if_pos (by have := q.isLt; omega)]
  unfold Cols
  obtain ⟨e0, e1, e2⟩ := idx3 t
  refine iInf_congr fun p => ?_
  have hI : ((((cfg0.win 3).blk t).view.emb (ix3 (0 : Fin 1) (0 : Fin 1) q)) 0).val = t.val / 4 := by
    show win0_3.index t (0 : Fin 3) * 1 + 1 * 0 = t.val / 4
    rw [e0]; omega
  have hq : ((((cfg0.win 3).blk t).view.emb (ix3 (0 : Fin 1) (0 : Fin 1) q)) 2).val = q.val := by
    show win0_3.index t (2 : Fin 3) * 16384 + 1 * q.val = q.val
    rw [e2]; omega
  rw [hI]
  exact congrArg (D m c (rowIx (t.val / 4) p)) (Fin.ext hq.symm)

theorem flushed3_eq (t : Fin cfg0.N) (hf : (cfg0.win 3).flush t = true) :
    (dats m 0 c).flushed 3 t = ((cfg0.win 3).blk t).view.read (Elt Ideal) (Cols m c) := by
  have h3 : t.val % 4 = 3 := (flush0_3 t).mp hf
  show (cfg0.win 3).cut (grid0.coords t) ((dats m 0 c).after 3 t) = _
  rw [after3]
  funext j
  rw [View.read_apply]
  exact colblk_eq m c t h3 j

theorem mem_blk3 (t : Fin cfg0.N) (i : S16x1x16384.Idx) :
    i ∈ ((cfg0.win 3).blk t).view.set ↔ ∀ a : Fin 3, win0_3.index t a * S1x1x16384.size a ≤ (i a).val ∧ (i a).val < win0_3.index t a * S1x1x16384.size a + S1x1x16384.size a := by
  show i ∈ ((View.whole main_v2_1).slice (win0_3.rect t)).set ↔ _
  rw [View.set_slice_whole, Rect.mem_set_unit]
  exact Iff.rfl

theorem cover3 (i : S16x1x16384.Idx) : ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 16384 := (i 2).isLt
  have hlt : 4 * (i 0).val + 3 < cfg0.N := by rw [show cfg0.N = 64 from N_0]; omega
  refine ⟨⟨4 * (i 0).val + 3, hlt⟩, (flush0_3 _).mpr (by show (4 * (i 0).val + 3) % 4 = 3; omega), ?_⟩
  rw [mem_blk3]
  obtain ⟨e0, e1, e2⟩ := idx3 ⟨4 * (i 0).val + 3, hlt⟩
  intro a
  match a with
  | ⟨0, _⟩ =>
    show win0_3.index ⟨4 * (i 0).val + 3, hlt⟩ (0 : Fin 3) * 1 ≤ (i 0).val ∧ (i 0).val < win0_3.index ⟨4 * (i 0).val + 3, hlt⟩ (0 : Fin 3) * 1 + 1
    rw [e0]; show (4 * (i 0).val + 3) / 4 * 1 ≤ (i 0).val ∧ (i 0).val < (4 * (i 0).val + 3) / 4 * 1 + 1
    omega
  | ⟨1, _⟩ =>
    show win0_3.index ⟨4 * (i 0).val + 3, hlt⟩ (1 : Fin 3) * 1 ≤ (i 1).val ∧ (i 1).val < win0_3.index ⟨4 * (i 0).val + 3, hlt⟩ (1 : Fin 3) * 1 + 1
    rw [e1]; omega
  | ⟨2, _⟩ =>
    show win0_3.index ⟨4 * (i 0).val + 3, hlt⟩ (2 : Fin 3) * 16384 ≤ (i 2).val ∧ (i 2).val < win0_3.index ⟨4 * (i 0).val + 3, hlt⟩ (2 : Fin 3) * 16384 + 16384
    rw [e2]; omega

/-- The second result array ends at the per-row-tile column minima. -/
theorem final3 : (dats m 0 c).arrAt 3 cfg0.N = Cols m c :=
  (dats m 0 c).arrAt_eq_of_cover 3 (Cols m c) (flushed3_eq m c) cover3

end Cert.KernelIdeal.Arrays

end
-- ==== Proof.Result.lean ====
import proofs.«168027_j59158879535331_2_alg».proof.Proof.Arrays

/-!
# The program's result is the chamfer distance of its two arguments

The launch reads `x` reshaped to a column and `y` reshaped to a row; with the two result arrays known, the host
operations after the launch give `½ · (Σ_r min_q |x_r − y_q|) / 16384 + ½ · (Σ_q min_r |x_r − y_q|) / 16384`: the sum over
the 16384 × 1 array is the sum over its rows, the minimum over the 16 row tiles of the per-tile column minima is the
column minimum over all 16384 rows.
-/

set_option maxRecDepth 16384

noncomputable section

namespace Cert.KernelIdeal.Result

open Cert.KernelIdeal Cert.KernelIdeal.Gen Cert.KernelIdeal.Body Cert.KernelIdeal.Fold Cert.KernelIdeal.Arrays
open Idealize.ShloMosaic Idealize.ShloMosaic.TcCoe Idealize.ShloMosaic.ValueIdx Idealize.ShloMosaic.LibInf
open Idealize.SL.Sem
open Idealize.ShloMosaic.Pipeline (Dat)

variable (m : (ℓ : Loc nD τ sig) → Buf (Elt Ideal) ℓ) (ρ : Dev nD → PrngReg) (c : Dev nD)

/-- The launch's first operand is the first argument as a column. -/
theorem X_eq : (V m c main_v0 : S16384x1.Idx → EReal)
    = shapeCast S16384x1 (m ((c : Thread nD τ).loc main_arg0)) shapeCasts_S16384_S16384x1 := by
  show StableHlo.after hostOps0 (fun b => m (c, b)) (Proc.devRef .tc main_v0) = _
  after_results
  rfl

/-- The second is the second argument as a row. -/
theorem Y_eq : (V m c main_v1 : S1x16384.Idx → EReal)
    = shapeCast S1x16384 (m ((c : Thread nD τ).loc main_arg1)) shapeCasts_S16384_S1x16384 := by
  show StableHlo.after hostOps0 (fun b => m (c, b)) (Proc.devRef .tc main_v1) = _
  after_results
  rfl

/-- A vector viewed as a column reads, at `(r, 0)`, the vector at `r`. -/
theorem castCol_apply {α : Type} (x : S16384.Idx → α) (h : S16384.ShapeCasts S16384x1) (r : Fin 16384) :
    shapeCast S16384x1 x h (ix2 r (0 : Fin 1)) = x (ix1 r) :=
  shapeCast_apply x h _ _ (by
    rw [Shape.rowMajor_val_two, Shape.rowMajor_val_one]
    show r.val = r.val * 1 + 0
    omega)

/-- The matrix entry, in terms of the arguments. -/
theorem D_eq (r q : Fin 16384) :
    D m c r q = Cert.Chamfer.dist (m ((c : Thread nD τ).loc main_arg0)) (m ((c : Thread nD τ).loc main_arg1)) r q := by
  unfold D Cert.Chamfer.dist X Y
  rw [X_eq, Y_eq, shapeCast_a_1a_apply, castCol_apply]

/-- The sum of the first result array is the sum of the row minima. -/
theorem rowSum_eq : Host.reduceAdd (F := Ideal) (Rows m c) (constant S_ .f32 0x00000000#32) reducesTo_S16384x1_S_d0_1 h_S_
    = Cert.Chamfer.rowSum (m ((c : Thread nD τ).loc main_arg0)) (m ((c : Thread nD τ).loc main_arg1)) := by
  funext i
  simp only [Host.reduceAdd, Ideal.hostReduceAdd_def]
  rw [Ideal.hostReduceAdd_total reducesTo_S16384x1_S_d0_1 (fun b => b.elim0) (Rows m c) _ i]
  unfold Cert.Chamfer.rowSum
  refine congrArg₂ (· + ·) rfl ?_
  rw [sum_idx2]
  refine Finset.sum_congr rfl fun r _ => ?_
  rw [Fin.sum_univ_one]
  unfold Rows Cert.Chamfer.rowMin
  exact iInf_congr fun q => D_eq m c r q

/-- The minimum over the row tiles of the second result array, summed, is the sum of the column minima. -/
theorem colSum_eq : Host.reduceAdd (F := Ideal)
      (Host.reduce FloatOps.minimumf (Cols m c) (constant (F := Ideal) S_ .f32 0x7F800000#32) reducesTo_S16x1x16384_S1x16384_d0 h_S_)
      (constant S_ .f32 0x00000000#32) reducesTo_S1x16384_S_d0_1 h_S_
    = Cert.Chamfer.colSum (m ((c : Thread nD τ).loc main_arg0)) (m ((c : Thread nD τ).loc main_arg1)) := by
  funext i
  simp only [Host.reduceAdd, Ideal.hostReduceAdd_def]
  rw [Ideal.hostReduceAdd_total reducesTo_S1x16384_S_d0_1 (fun b => b.elim0) _ _ i]
  unfold Cert.Chamfer.colSum
  refine congrArg₂ (· + ·) rfl ?_
  rw [sum_idx2, Fin.sum_univ_one]
  refine Finset.sum_congr rfl fun q _ => ?_
  have hred : S16x1x16384.Reduces [0] S1x16384 := by decide
  refine (Host.reduce_eq_fold_single _ _ _ reducesTo_S16x1x16384_S1x16384_d0 hred h_S_ (ix2 (0 : Fin 1) q)).trans ?_
  refine (fold_min_pinf _).trans ?_
  unfold Cert.Chamfer.colMin
  rw [iInf_blocks (N := 16384) (a := 16) (b := 1024) rfl (fun r => Cert.Chamfer.dist (m ((c : Thread nD τ).loc main_arg0)) (m ((c : Thread nD τ).loc main_arg1)) r q)]
  refine iInf_congr fun I => ?_
  show Cols m c (hred.lift (ix2 (0 : Fin 1) q) I) = _
  unfold Cols
  refine iInf_congr fun p => ?_
  rw [D_eq]
  refine congrArg₂ (Cert.Chamfer.dist _ _) (Fin.ext ?_) (Fin.ext rfl)
  show (1024 * I.val + p.val) % 16384 = 1024 * I.val + p.val
  have : I.val < 16 := I.isLt
  have := p.isLt; omega

/-- What the host operations after the launch leave in the result buffer. -/
theorem tail_eq : Pipeline.afterTail₀ cfgs (dats m) 0 (V0 m) [hostOps1] c main_v10
    = Cert.Chamfer.chamfer (m ((c : Thread nD τ).loc main_arg0)) (m ((c : Thread nD τ).loc main_arg1)) := by
  unfold Pipeline.afterTail₀
  show StableHlo.after hostOps1 _ (Proc.devRef .tc main_v10) = _
  after_results
  rw [show Pipeline.withArrays spec0 c (V0 m c) (fun w => (dats m 0 c).arrAt w cfg0.N) (Proc.devRef .tc main_v2_0) = Rows m c from
      (Pipeline.withArrays_arr spec0 launch0.win.arr_inj c _ _ 2).trans (final2 m c),
    show Pipeline.withArrays spec0 c (V0 m c) (fun w => (dats m 0 c).arrAt w cfg0.N) (Proc.devRef .tc main_v2_1) = Cols m c from
      (Pipeline.withArrays_arr spec0 launch0.win.arr_inj c _ _ 3).trans (final3 m c)]
  rw [rowSum_eq, colSum_eq]
  rfl

/-- THE RUN, READ: the result buffer ends at the chamfer distance of the arguments, which end unchanged. -/
theorem run : θ_run defs (onTc (τ := τ) (main (F := Ideal))) ⟨m, fun _ => 0, ρ⟩ fun r => ∀ c : Dev nD,
      r.2.mem ((c.tc : Thread nD τ).loc main_v10)
        = Cert.Chamfer.chamfer (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.RefValue.lean ====
import proofs.«168027_j59158879535331_2_alg».proof.Proof.Gen.ReferenceIdeal.Run
import proofs.«168027_j59158879535331_2_alg».proof.Proof.Gen.ReferenceIdeal.Read
import proofs.«168027_j59158879535331_2_alg».proof.Proof.Spec
import Idealize.ShloMosaic.Lib.ValueIdx
import Idealize.ShloMosaic.PureOps.Ideal.Laws

/-!
# The reference computes the chamfer distance

Read one operation at a time: the 16384 × 16384 matrix `|x_r − y_q|`, its minimum along each row and along each
column (each a `min`-fold from `+∞` over one axis, hence an infimum), the two sums, and the closing scalar operations.
-/

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.LibInf

variable (x y : (⟨S16384, .f32⟩ : BufTy).Contents (Elt Ideal))

/-- The matrix at `(r, q)`. -/
theorem matrix_apply (r q : Fin 16384) : val_main_v5 (F := Ideal) x y (ix2 r q) = Cert.Chamfer.dist x y r q := by
  rw [val_main_v5_apply, val_main_v4_apply, val_main_v2_apply, val_main_v3_apply, val_main_v0_apply, val_main_v1_apply]
  have e0 : idx_main_v0 (idx_main_v2 (ix2 r q)) = ix1 r := funext fun a => Fin.ext (by match a with | ⟨0, _⟩ => rfl)
  have e1 : idx_main_v1 (idx_main_v3 (ix2 r q)) = ix1 q := funext fun a => Fin.ext (by match a with | ⟨0, _⟩ => rfl)
  rw [e0, e1]
  unfold Cert.Chamfer.dist
  rfl

/-- The row minima. -/
theorem rows_apply (r : Fin 16384) : val_main_v6 (F := Ideal) x y (ix1 r) = Cert.Chamfer.rowMin x y r := by
  unfold val_main_v6
  have hred : S16384x16384.Reduces [1] S16384 := by decide
  refine (Host.reduce_eq_fold_single _ _ _ reducesTo_S16384x16384_S16384_d1 hred h_S_ (ix1 r)).trans ?_
  refine (fold_min_pinf _).trans ?_
  unfold Cert.Chamfer.rowMin
  refine iInf_congr fun q => ?_
  show val_main_v5 (F := Ideal) x y (hred.lift (ix1 r) q) = _
  rw [← matrix_apply x y r q]
  refine congrArg (val_main_v5 (F := Ideal) x y) (funext fun a => Fin.ext ?_)
  match a with
  | ⟨0, _⟩ => rfl
  | ⟨1, _⟩ => rfl

/-- The column minima. -/
theorem cols_apply (q : Fin 16384) : val_main_v8 (F := Ideal) x y (ix1 q) = Cert.Chamfer.colMin x y q := by
  unfold val_main_v8
  have hred : S16384x16384.Reduces [0] S16384 := by decide
  refine (Host.reduce_eq_fold_single _ _ _ reducesTo_S16384x16384_S16384_d0 hred h_S_ (ix1 q)).trans ?_
  refine (fold_min_pinf _).trans ?_
  unfold Cert.Chamfer.colMin
  refine iInf_congr fun r => ?_
  show val_main_v5 (F := Ideal) x y (hred.lift (ix1 q) r) = _
  rw [← matrix_apply x y r q]
  refine congrArg (val_main_v5 (F := Ideal) x y) (funext fun a => Fin.ext ?_)
  match a with
  | ⟨0, _⟩ => rfl
  | ⟨1, _⟩ => rfl

/-- A sum over the vector shape's indices is the sum over its one coordinate. -/
theorem sum_idx1 {M : Type*} [AddCommMonoid M] (f : S16384.Idx → M) : ∑ i, f i = ∑ a : Fin 16384, f (ix1 a) := by
  refine (Fintype.sum_equiv ⟨fun a : Fin 16384 => (ix1 a : S16384.Idx), fun i => i 0, fun a => rfl, fun i => (eq_ix1 i).symm⟩ _ _ fun a => rfl).symm

theorem rowSum_eq : val_main_v7 (F := Ideal) x y = Cert.Chamfer.rowSum x y := by
  funext i
  rw [val_main_v7_apply, sum_idx1]
  unfold Cert.Chamfer.rowSum
  refine congrArg₂ (· + ·) rfl (Finset.sum_congr rfl fun r _ => rows_apply x y r)

theorem colSum_eq : val_main_v9 (F := Ideal) x y = Cert.Chamfer.colSum x y := by
  funext i
  rw [val_main_v9_apply, sum_idx1]
  unfold Cert.Chamfer.colSum
  refine congrArg₂ (· + ·) rfl (Finset.sum_congr rfl fun q _ => cols_apply x y q)

/-- THE REFERENCE'S RESULT is the chamfer distance. -/
theorem result_eq : val_main_v14 (F := Ideal) x y = Cert.Chamfer.chamfer x y := by
  unfold val_main_v14 val_main_v11 val_main_v13 val_main_v10 val_main_v12
  rw [rowSum_eq, colSum_eq]
  rfl

end Cert.ReferenceIdeal.RefValue

end
-- ==== Proof.lean ====
/-
  The chamfer distance of two vectors `x, y` of 16384 entries,
      ½ · (Σ_r min_q |x_r − y_q|) / 16384 + ½ · (Σ_q min_r |x_r − y_q|) / 16384,
  computed two ways that agree on the extended reals.

  The reference forms the whole 16384 × 16384 matrix `|x_r − y_q|`, takes its minimum along each row and each column,
  sums both and mixes the sums. The kernel walks a 16 × 4 grid of tiles (1024 rows by 4096 columns), each tile in four
  strips of 1024 columns: it keeps, per row tile, the running row minima (lowered strip by strip, written back after
  the row tile's last column tile) and the column minima over the row tile's 1024 rows (each strip lowered once from
  `+∞`); the host then sums the row minima, takes the minimum of the per-row-tile column minima over the 16 row tiles,
  sums that, and mixes the two sums with the same scalar operations as the reference.

  The two agree because `min` is associative, commutative and has `+∞` as its unit: a minimum over 16384 columns is
  the minimum of the minima over 16 strips of 1024, in whatever order they are met, and a minimum over 16384 rows is the
  minimum over 16 row tiles of the minima over each tile's 1024 rows. No finiteness of the inputs is used.

  The kernel's idealization rewrote nothing, so it preserves the kernel trivially. The three programs run, and leave
  their arguments unchanged: for the two kernel programs by the launch's proof data (what the two resident blocks hold
  after every grid point), for the reference by reading its operations in order.
-/
import proofs.«168027_j59158879535331_2_alg».proof.Defs
import proofs.«168027_j59158879535331_2_alg».proof.Proof.Gen.Kernel
import proofs.«168027_j59158879535331_2_alg».proof.Proof.Gen.KernelIdeal
import proofs.«168027_j59158879535331_2_alg».proof.Proof.Gen.ReferenceIdeal
import proofs.«168027_j59158879535331_2_alg».proof.Proof.Gen.Pre_finite_inputs
import proofs.«168027_j59158879535331_2_alg».proof.Proof.Gen.ReferenceIdeal.Run
import proofs.«168027_j59158879535331_2_alg».proof.Proof.Gen.ReferenceIdeal.Read
import proofs.«168027_j59158879535331_2_alg».proof.Proof.BitsBody
import proofs.«168027_j59158879535331_2_alg».proof.Proof.Result
import proofs.«168027_j59158879535331_2_alg».proof.Proof.RefValue
import Idealize.ShloMosaic.Adequacy
import Idealize.ShloMosaic.Init

noncomputable section

namespace Cert.Proof

open Idealize.ShloMosaic Idealize.ShloMosaic.TcCoe Idealize.SL.Sem

/-- The kernel runs and keeps its arguments. -/
theorem frame_k : Cert.frame_Kernel (hKernel := Cert.Kernel.Gen.facts) (hPre_finite_inputs := Cert.Pre_finite_inputs.Gen.facts) :=
  fun m ρ _ => Cert.Kernel.Body.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- And the reference: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the chamfer distance of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Chamfer.chamfer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v14_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
